-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26_0)) (v4 : (c : Dev Cert.KernelIdeal.nD) → Buf (Elt Ideal) ((c.tc : Thread Cert.KernelIdeal.nD Cert.KernelIdeal.τ).loc Cert.KernelIdeal.main_v26_1)) (v5 : (c : Dev Cert.KernelIdeal.nD) → Buf (Elt Ideal) ((c.tc : Thread Cert.KernelIdeal.nD Cert.KernelIdeal.τ).loc Cert.KernelIdeal.main_v26_2)) (v6 : (c : Dev Cert.KernelIdeal.nD) → Buf (Elt Ideal) ((c.tc : Thread Cert.KernelIdeal.nD Cert.KernelIdeal.τ).loc Cert.KernelIdeal.main_v26_3)) (v7 : (c : Dev Cert.KernelIdeal.nD) → Buf (Elt Ideal) ((c.tc : Thread Cert.KernelIdeal.nD Cert.KernelIdeal.τ).loc Cert.KernelIdeal.main_v26_4)) (v8 : (c : Dev Cert.KernelIdeal.nD) → Buf (Elt Ideal) ((c.tc : Thread Cert.KernelIdeal.nD Cert.KernelIdeal.τ).loc Cert.KernelIdeal.main_v26_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v26_0) = v3 c
          ∧ r.2.mem ((c.tc : Thread Cert.KernelIdeal.nD Cert.KernelIdeal.τ).loc Cert.KernelIdeal.main_v26_1) = v4 c
          ∧ r.2.mem ((c.tc : Thread Cert.KernelIdeal.nD Cert.KernelIdeal.τ).loc Cert.KernelIdeal.main_v26_2) = v5 c
          ∧ r.2.mem ((c.tc : Thread Cert.KernelIdeal.nD Cert.KernelIdeal.τ).loc Cert.KernelIdeal.main_v26_3) = v6 c
          ∧ r.2.mem ((c.tc : Thread Cert.KernelIdeal.nD Cert.KernelIdeal.τ).loc Cert.KernelIdeal.main_v26_4) = v7 c
          ∧ r.2.mem ((c.tc : Thread Cert.KernelIdeal.nD Cert.KernelIdeal.τ).loc Cert.KernelIdeal.main_v26_5) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_v43) = v5 c
          ∧ r.2.mem ((c.tc : Thread Cert.ReferenceIdeal.nD Cert.ReferenceIdeal.τ).loc Cert.ReferenceIdeal.main_v81) = v6 c
          ∧ r.2.mem ((c.tc : Thread Cert.ReferenceIdeal.nD Cert.ReferenceIdeal.τ).loc Cert.ReferenceIdeal.main_v62) = v7 c
          ∧ r.2.mem ((c.tc : Thread Cert.ReferenceIdeal.nD Cert.ReferenceIdeal.τ).loc Cert.ReferenceIdeal.main_v71) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S32x512x512 : Shape := ⟨3, ![32, 512, 512]⟩
abbrev S512x512 : Shape := ⟨2, ![512, 512]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_arg11 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  main_v58

def fn_part2 {F : FTy → Type} [FloatOps F] (main_arg7 : FVec F S32x512x512 .f32) (main_arg8 : FVec F S32x512x512 .f32) (main_arg9 : FVec F S32x512x512 .f32) (main_arg10 : FVec F S512x512 .f32) (main_arg11 : FVec F S512x512 .f32) (main_v33 : IVec S_ 1) : IVec S_ 1 :=
  let main_v34 : FVec F S32x512x512 .f32 := Host.absf main_arg7
  let main_cst_12 : FVec F S_ .f32 := constant S_ .f32 0x7F800000#32
  let main_v35 : FVec F S32x512x512 .f32 := broadcastInDim S32x512x512 ![] bcast_S_S32x512x512 main_cst_12
  let main_v36 : IVec S32x512x512 1 := cmpf .olt main_v34 main_v35
  let main_c_13 : IVec S_ 1 := constantI S_ 1 1#1
  let main_v37 : IVec S_ 1 := (fun x v => Host.reduce IntOp.andi x v reducesTo_S32x512x512_S_d0_1_2 h_S_) main_v36 main_c_13
  let main_v38 : IVec S_ 1 := andi main_v33 main_v37
  let main_v39 : FVec F S32x512x512 .f32 := Host.absf main_arg8
  let main_cst_14 : FVec F S_ .f32 := constant S_ .f32 0x7F800000#32
  let main_v40 : FVec F S32x512x512 .f32 := broadcastInDim S32x512x512 ![] bcast_S_S32x512x512 main_cst_14
  let main_v41 : IVec S32x512x512 1 := cmpf .olt main_v39 main_v40
  let main_c_15 : IVec S_ 1 := constantI S_ 1 1#1
  let main_v42 : IVec S_ 1 := (fun x v => Host.reduce IntOp.andi x v reducesTo_S32x512x512_S_d0_1_2 h_S_) main_v41 main_c_15
  let main_v43 : IVec S_ 1 := andi main_v38 main_v42
  let main_v44 : FVec F S32x512x512 .f32 := Host.absf main_arg9
  let main_cst_16 : FVec F S_ .f32 := constant S_ .f32 0x7F800000#32
  let main_v45 : FVec F S32x512x512 .f32 := broadcastInDim S32x512x512 ![] bcast_S_S32x512x512 main_cst_16
  let main_v46 : IVec S32x512x512 1 := cmpf .olt main_v44 main_v45
  let main_c_17 : IVec S_ 1 := constantI S_ 1 1#1
  let main_v47 : IVec S_ 1 := (fun x v => Host.reduce IntOp.andi x v reducesTo_S32x512x512_S_d0_1_2 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_v48 main_v49 main_v50

def fn_part1 {F : FTy → Type} [FloatOps F] (main_arg4 : FVec F S32x512x512 .f32) (main_arg5 : FVec F S32x512x512 .f32) (main_arg6 : FVec F S32x512x512 .f32) (main_arg7 : FVec F S32x512x512 .f32) (main_arg8 : FVec F S32x512x512 .f32) (main_arg9 : FVec F S32x512x512 .f32) (main_arg10 : FVec F S512x512 .f32) (main_arg11 : FVec F S512x512 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S32x512x512 .f32 := Host.absf main_arg4
  let main_cst_6 : FVec F S_ .f32 := constant S_ .f32 0x7F800000#32
  let main_v20 : FVec F S32x512x512 .f32 := broadcastInDim S32x512x512 ![] bcast_S_S32x512x512 main_cst_6
  let main_v21 : IVec S32x512x512 1 := cmpf .olt main_v19 main_v20
  let main_c_7 : IVec S_ 1 := constantI S_ 1 1#1
  let main_v22 : IVec S_ 1 := (fun x v => Host.reduce IntOp.andi x v reducesTo_S32x512x512_S_d0_1_2 h_S_) main_v21 main_c_7
  let main_v23 : IVec S_ 1 := andi main_v18 main_v22
  let main_v24 : FVec F S32x512x512 .f32 := Host.absf main_arg5
  let main_cst_8 : FVec F S_ .f32 := constant S_ .f32 0x7F800000#32
  let main_v25 : FVec F S32x512x512 .f32 := broadcastInDim S32x512x512 ![] bcast_S_S32x512x512 main_cst_8
  let main_v26 : IVec S32x512x512 1 := cmpf .olt main_v24 main_v25
  let main_c_9 : IVec S_ 1 := constantI S_ 1 1#1
  let main_v27 : IVec S_ 1 := (fun x v => Host.reduce IntOp.andi x v reducesTo_S32x512x512_S_d0_1_2 h_S_) main_v26 main_c_9
  let main_v28 : IVec S_ 1 := andi main_v23 main_v27
  let main_v29 : FVec F S32x512x512 .f32 := Host.absf main_arg6
  let main_cst_10 : FVec F S_ .f32 := constant S_ .f32 0x7F800000#32
  let main_v30 : FVec F S32x512x512 .f32 := broadcastInDim S32x512x512 ![] bcast_S_S32x512x512 main_cst_10
  let main_v31 : IVec S32x512x512 1 := cmpf .olt main_v29 main_v30
  let main_c_11 : IVec S_ 1 := constantI S_ 1 1#1
  let main_v32 : IVec S_ 1 := (fun x v => Host.reduce IntOp.andi x v reducesTo_S32x512x512_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x512 .f32) (main_arg1 : FVec F S32x512 .f32) (main_arg2 : FVec F S32x512 .f32) (main_arg3 : FVec F S32x512 .f32) (main_arg4 : FVec F S32x512x512 .f32) (main_arg5 : FVec F S32x512x512 .f32) (main_arg6 : FVec F S32x512x512 .f32) (main_arg7 : FVec F S32x512x512 .f32) (main_arg8 : FVec F S32x512x512 .f32) (main_arg9 : FVec F S32x512x512 .f32) (main_arg10 : FVec F S512x512 .f32) (main_arg11 : FVec F S512x512 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_arg5 main_arg6 main_arg7 main_arg8 main_arg9 main_arg10 main_arg11 main_v13 main_v16
-- ==== Kernel.lean ====
abbrev S32x512 : Shape := ⟨2, ![32, 512]⟩
abbrev S32x512x512 : Shape := ⟨3, ![32, 512, 512]⟩
abbrev S512x512 : Shape := ⟨2, ![512, 512]⟩
abbrev S_ : Shape := ⟨0, ![]⟩
abbrev S8x512 : Shape := ⟨2, ![8, 512]⟩
abbrev S8x128 : Shape := ⟨2, ![8, 128]⟩
abbrev S8x512x128 : Shape := ⟨3, ![8, 512, 128]⟩
abbrev S8x1x128 : Shape := ⟨3, ![8, 1, 128]⟩
abbrev S8x512x1 : Shape := ⟨3, ![8, 512, 1]⟩

abbrev nBuf : Space → Nat
  | .hbm => 51
  | .vmem => 30
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S32x512x512, .f32⟩
  | .hbm, ⟨5, _⟩ => ⟨S32x512x512, .f32⟩
  | .hbm, ⟨6, _⟩ => ⟨S32x512x512, .f32⟩
  | .hbm, ⟨7, _⟩ => ⟨S32x512x512, .f32⟩
  | .hbm, ⟨8, _⟩ => ⟨S32x512x512, .f32⟩
  | .hbm, ⟨9, _⟩ => ⟨S32x512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S32x512, .f32⟩
  | .hbm, ⟨14, _⟩ => ⟨S32x512, .f32⟩
  | .hbm, ⟨15, _⟩ => ⟨S32x512, .f32⟩
  | .hbm, ⟨16, _⟩ => ⟨S_, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S_, .f32⟩
  | .hbm, ⟨25, _⟩ => ⟨S32x512, .f32⟩
  | .hbm, ⟨26, _⟩ => ⟨S32x512, .f32⟩
  | .hbm, ⟨27, _⟩ => ⟨S_, .f32⟩
  | .hbm, ⟨28, _⟩ => ⟨S32x512, .f32⟩
  | .hbm, ⟨29, _⟩ => ⟨S32x512, .i1⟩
  | .hbm, ⟨30, _⟩ => ⟨S32x512, .f32⟩
  | .hbm, ⟨31, _⟩ => ⟨S_, .f32⟩
  | .hbm, ⟨32, _⟩ => ⟨S32x512, .f32⟩
  | .hbm, ⟨33, _⟩ => ⟨S32x512, .f32⟩
  | .hbm, ⟨34, _⟩ => ⟨S32x512, .f32⟩
  | .hbm, ⟨35, _⟩ => ⟨S_, .f32⟩
  | .hbm, ⟨36, _⟩ => ⟨S32x512, .f32⟩
  | .hbm, ⟨37, _⟩ => ⟨S32x512, .f32⟩
  | .hbm, ⟨38, _⟩ => ⟨S32x512, .f32⟩
  | .hbm, ⟨39, _⟩ => ⟨S512x512, .f32⟩
  | .hbm, ⟨40, _⟩ => ⟨S32x512, .f32⟩
  | .hbm, ⟨41, _⟩ => ⟨S32x512, .f32⟩
  | .hbm, ⟨42, _⟩ => ⟨S512x512, .f32⟩
  | .hbm, ⟨43, _⟩ => ⟨S32x512, .f32⟩
  | .hbm, ⟨44, _⟩ => ⟨S32x512, .f32⟩
  | .hbm, ⟨45, _⟩ => ⟨S32x512x512, .f32⟩
  | .hbm, ⟨46, _⟩ => ⟨S32x512x512, .f32⟩
  | .hbm, ⟨47, _⟩ => ⟨S32x512x512, .f32⟩
  | .hbm, ⟨48, _⟩ => ⟨S32x512x512, .f32⟩
  | .hbm, ⟨49, _⟩ => ⟨S32x512x512, .f32⟩
  | .hbm, ⟨50, _⟩ => ⟨S32x512x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x128, .f32⟩
  | .local _ .vmem, ⟨5, _⟩ => ⟨S8x128, .f32⟩
  | .local _ .vmem, ⟨6, _⟩ => ⟨S8x512x128, .f32⟩
  | .local _ .vmem, ⟨7, _⟩ => ⟨S8x512x128, .f32⟩
  | .local _ .vmem, ⟨8, _⟩ => ⟨S8x512x128, .f32⟩
  | .local _ .vmem, ⟨9, _⟩ => ⟨S8x512x128, .f32⟩
  | .local _ .vmem, ⟨10, _⟩ => ⟨S8x512x128, .f32⟩
  | .local _ .vmem, ⟨11, _⟩ => ⟨S8x512x128, .f32⟩
  | .local _ .vmem, ⟨12, _⟩ => ⟨S8x512x128, .f32⟩
  | .local _ .vmem, ⟨13, _⟩ => ⟨S8x512x128, .f32⟩
  | .local _ .vmem, ⟨14, _⟩ => ⟨S8x512x128, .f32⟩
  | .local _ .vmem, ⟨15, _⟩ => ⟨S8x512x128, .f32⟩
  | .local _ .vmem, ⟨16, _⟩ => ⟨S8x512x128, .f32⟩
  | .local _ .vmem, ⟨17, _⟩ => ⟨S8x512x128, .f32⟩
  | .local _ .vmem, ⟨18, _⟩ => ⟨S8x512x128, .f32⟩
  | .local _ .vmem, ⟨19, _⟩ => ⟨S8x512x128, .f32⟩
  | .local _ .vmem, ⟨20, _⟩ => ⟨S8x512x128, .f32⟩
  | .local _ .vmem, ⟨21, _⟩ => ⟨S8x512x128, .f32⟩
  | .local _ .vmem, ⟨22, _⟩ => ⟨S8x512x128, .f32⟩
  | .local _ .vmem, ⟨23, _⟩ => ⟨S8x512x128, .f32⟩
  | .local _ .vmem, ⟨24, _⟩ => ⟨S8x512x128, .f32⟩
  | .local _ .vmem, ⟨25, _⟩ => ⟨S8x512x128, .f32⟩
  | .local _ .vmem, ⟨26, _⟩ => ⟨S8x512x128, .f32⟩
  | .local _ .vmem, ⟨27, _⟩ => ⟨S8x512x128, .f32⟩
  | .local _ .vmem, ⟨28, _⟩ => ⟨S8x512x128, .f32⟩
  | .local _ .vmem, ⟨29, _⟩ => ⟨S8x512x128, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v26_2 : Ref sig .tc := ⟨.hbm, 47, rfl⟩
abbrev main_v26_3 : Ref sig .tc := ⟨.hbm, 48, rfl⟩
abbrev main_v26_4 : Ref sig .tc := ⟨.hbm, 49, rfl⟩
abbrev main_v26_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  bcast_S_S32x512 : S_.BroadcastsInDim S32x512 (![] : Fin 0 → Fin S32x512.rank)
  transposes_S512x512_S512x512_1_0 : S512x512.Transposes [1, 0] S512x512
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x1x128 : S8x128.ShapeCasts S8x1x128
  inb_S8x512_S8x512_0_0 : ∀ a, (![0, 0] : Fin 2 → Nat) a + S8x512.size a ≤ S8x512.size a
  h_S8x512 : 0 < S8x512.numel
  shapeCasts_S8x512_S8x512x1 : S8x512.ShapeCasts S8x512x1
  inb_S8x512x128_S8x512x128_0_0_0 : ∀ a, (![0, 0, 0] : Fin 3 → Nat) a + S8x512x128.size a ≤ S8x512x128.size a
  h_S8x512x128 : 0 < S8x512x128.numel
  broadcasts_S8x1x128_S8x512x128 : S8x1x128.Broadcasts S8x512x128
  broadcasts_S8x512x1_S8x512x128 : S8x512x1.Broadcasts S8x512x128
  dot_S32x512_S512x512_S32x512_1_0_0_1_n_n_wf : DotDims.WF S32x512 S512x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S32x512.size a
  hwx0_0 : ∀ i : grid0.Coords, EltTy.bits .f32 = 32 ∨ (Rect.block (s := S32x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S32x512.size a
  hwx0_1 : ∀ i : grid0.Coords, EltTy.bits .f32 = 32 ∨ (Rect.block (s := S32x512) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x512.size a
  hwx0_2 : ∀ i : grid0.Coords, EltTy.bits .f32 = 32 ∨ (Rect.block (s := S32x512) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x128.size a ≤ S32x512x512.size a
  hwx0_3 : ∀ i : grid0.Coords, EltTy.bits .f32 = 32 ∨ (Rect.block (s := S32x512x512) S8x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512x128.size a ≤ S32x512x512.size a
  hwx0_4 : ∀ i : grid0.Coords, EltTy.bits .f32 = 32 ∨ (Rect.block (s := S32x512x512) S8x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512x128.size a ≤ S32x512x512.size a
  hwx0_5 : ∀ i : grid0.Coords, EltTy.bits .f32 = 32 ∨ (Rect.block (s := S32x512x512) S8x512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512x128.size a ≤ S32x512x512.size a
  hwx0_6 : ∀ i : grid0.Coords, EltTy.bits .f32 = 32 ∨ (Rect.block (s := S32x512x512) S8x512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x512x128.size a ≤ S32x512x512.size a
  hwx0_7 : ∀ i : grid0.Coords, EltTy.bits .f32 = 32 ∨ (Rect.block (s := S32x512x512) S8x512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x512x128.size a ≤ S32x512x512.size a
  hwx0_8 : ∀ i : grid0.Coords, EltTy.bits .f32 = 32 ∨ (Rect.block (s := S32x512x512) S8x512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x512x128.size a ≤ S32x512x512.size a
  hwx0_9 : ∀ i : grid0.Coords, EltTy.bits .f32 = 32 ∨ (Rect.block (s := S32x512x512) S8x512x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x512x128.size a ≤ S32x512x512.size a
  hwx0_10 : ∀ i : grid0.Coords, EltTy.bits .f32 = 32 ∨ (Rect.block (s := S32x512x512) S8x512x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x512x128.size a ≤ S32x512x512.size a
  hwx0_11 : ∀ i : grid0.Coords, EltTy.bits .f32 = 32 ∨ (Rect.block (s := S32x512x512) S8x512x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x512x128.size a ≤ S32x512x512.size a
  hwx0_12 : ∀ i : grid0.Coords, EltTy.bits .f32 = 32 ∨ (Rect.block (s := S32x512x512) S8x512x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x512x128.size a ≤ S32x512x512.size a
  hwx0_13 : ∀ i : grid0.Coords, EltTy.bits .f32 = 32 ∨ (Rect.block (s := S32x512x512) S8x512x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x512x128.size a ≤ S32x512x512.size a
  hwx0_14 : ∀ i : grid0.Coords, EltTy.bits .f32 = 32 ∨ (Rect.block (s := S32x512x512) S8x512x128.size (cc0_transform_14 i) (hinb0_14 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8x512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S8x512x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S8x512x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S8x512x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v26_0) S8x512x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v26_1) S8x512x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_2) S8x512x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v26_3) S8x512x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v26_4) S8x512x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v26_5) S8x512x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where
  halias0_9 : Pipeline.Aliased win0 3 9
  halias0_10 : Pipeline.Aliased win0 4 10
  halias0_11 : Pipeline.Aliased win0 5 11
  halias0_12 : Pipeline.Aliased win0 6 12
  halias0_13 : Pipeline.Aliased win0 7 13
  halias0_14 : Pipeline.Aliased win0 8 14

variable [Facts]
-- ==== ReferenceIdeal.lean ====
abbrev S32x512 : Shape := ⟨2, ![32, 512]⟩
abbrev S32x512x512 : Shape := ⟨3, ![32, 512, 512]⟩
abbrev S512x512 : Shape := ⟨2, ![512, 512]⟩
abbrev S_ : Shape := ⟨0, ![]⟩
abbrev S32x512x1 : Shape := ⟨3, ![32, 512, 1]⟩
abbrev S32x1x512 : Shape := ⟨3, ![32, 1, 512]⟩

abbrev nBuf : Space → Nat
  | .hbm => 115
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S32x512x512, .f32⟩
  | .hbm, ⟨5, _⟩ => ⟨S32x512x512, .f32⟩
  | .hbm, ⟨6, _⟩ => ⟨S32x512x512, .f32⟩
  | .hbm, ⟨7, _⟩ => ⟨S32x512x512, .f32⟩
  | .hbm, ⟨8, _⟩ => ⟨S32x512x512, .f32⟩
  | .hbm, ⟨9, _⟩ => ⟨S32x512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S32x512, .f32⟩
  | .hbm, ⟨14, _⟩ => ⟨S32x512, .f32⟩
  | .hbm, ⟨15, _⟩ => ⟨S32x512, .f32⟩
  | .hbm, ⟨16, _⟩ => ⟨S_, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S_, .f32⟩
  | .hbm, ⟨25, _⟩ => ⟨S32x512, .f32⟩
  | .hbm, ⟨26, _⟩ => ⟨S32x512, .f32⟩
  | .hbm, ⟨27, _⟩ => ⟨S_, .f32⟩
  | .hbm, ⟨28, _⟩ => ⟨S32x512, .f32⟩
  | .hbm, ⟨29, _⟩ => ⟨S32x512, .i1⟩
  | .hbm, ⟨30, _⟩ => ⟨S32x512, .f32⟩
  | .hbm, ⟨31, _⟩ => ⟨S_, .f32⟩
  | .hbm, ⟨32, _⟩ => ⟨S32x512, .f32⟩
  | .hbm, ⟨33, _⟩ => ⟨S32x512, .f32⟩
  | .hbm, ⟨34, _⟩ => ⟨S32x512, .f32⟩
  | .hbm, ⟨35, _⟩ => ⟨S_, .f32⟩
  | .hbm, ⟨36, _⟩ => ⟨S32x512, .f32⟩
  | .hbm, ⟨37, _⟩ => ⟨S32x512, .f32⟩
  | .hbm, ⟨38, _⟩ => ⟨S32x512, .f32⟩
  | .hbm, ⟨39, _⟩ => ⟨S512x512, .f32⟩
  | .hbm, ⟨40, _⟩ => ⟨S32x512, .f32⟩
  | .hbm, ⟨41, _⟩ => ⟨S32x512, .f32⟩
  | .hbm, ⟨42, _⟩ => ⟨S512x512, .f32⟩
  | .hbm, ⟨43, _⟩ => ⟨S32x512, .f32⟩
  | .hbm, ⟨44, _⟩ => ⟨S32x512, .f32⟩
  | .hbm, ⟨45, _⟩ => ⟨S32x512x1, .f32⟩
  | .hbm, ⟨46, _⟩ => ⟨S32x1x512, .f32⟩
  | .hbm, ⟨47, _⟩ => ⟨S_, .f32⟩
  | .hbm, ⟨48, _⟩ => ⟨S32x512x512, .f32⟩
  | .hbm, ⟨49, _⟩ => ⟨S32x512x512, .f32⟩
  | .hbm, ⟨50, _⟩ => ⟨S_, .f32⟩
  | .hbm, ⟨51, _⟩ => ⟨S32x1x512, .f32⟩
  | .hbm, ⟨52, _⟩ => ⟨S32x1x512, .f32⟩
  | .hbm, ⟨53, _⟩ => ⟨S32x512x512, .f32⟩
  | .hbm, ⟨54, _⟩ => ⟨S32x512x512, .f32⟩
  | .hbm, ⟨55, _⟩ => ⟨S32x512x512, .f32⟩
  | .hbm, ⟨56, _⟩ => ⟨S_, .f32⟩
  | .hbm, ⟨57, _⟩ => ⟨S32x512x512, .f32⟩
  | .hbm, ⟨58, _⟩ => ⟨S32x512x512, .f32⟩
  | .hbm, ⟨59, _⟩ => ⟨S_, .f32⟩
  | .hbm, ⟨60, _⟩ => ⟨S32x512x1, .f32⟩
  | .hbm, ⟨61, _⟩ => ⟨S32x512x1, .f32⟩
  | .hbm, ⟨62, _⟩ => ⟨S_, .f32⟩
  | .hbm, ⟨63, _⟩ => ⟨S32x512x512, .f32⟩
  | .hbm, ⟨64, _⟩ => ⟨S32x512x512, .f32⟩
  | .hbm, ⟨65, _⟩ => ⟨S32x512x512, .f32⟩
  | .hbm, ⟨66, _⟩ => ⟨S32x512x512, .f32⟩
  | .hbm, ⟨67, _⟩ => ⟨S32x512x512, .f32⟩
  | .hbm, ⟨68, _⟩ => ⟨S_, .f32⟩
  | .hbm, ⟨69, _⟩ => ⟨S32x512x1, .f32⟩
  | .hbm, ⟨70, _⟩ => ⟨S32x512x1, .f32⟩
  | .hbm, ⟨71, _⟩ => ⟨S_, .f32⟩
  | .hbm, ⟨72, _⟩ => ⟨S32x1x512, .f32⟩
  | .hbm, ⟨73, _⟩ => ⟨S32x1x512, .f32⟩
  | .hbm, ⟨74, _⟩ => ⟨S32x512x512, .f32⟩
  | .hbm, ⟨75, _⟩ => ⟨S32x512x512, .f32⟩
  | .hbm, ⟨76, _⟩ => ⟨S32x512x512, .f32⟩
  | .hbm, ⟨77, _⟩ => ⟨S32x512x512, .f32⟩
  | .hbm, ⟨78, _⟩ => ⟨S32x512x512, .f32⟩
  | .hbm, ⟨79, _⟩ => ⟨S32x512x512, .f32⟩
  | .hbm, ⟨80, _⟩ => ⟨S32x512x1, .f32⟩
  | .hbm, ⟨81, _⟩ => ⟨S32x1x512, .f32⟩
  | .hbm, ⟨82, _⟩ => ⟨S_, .f32⟩
  | .hbm, ⟨83, _⟩ => ⟨S32x512x512, .f32⟩
  | .hbm, ⟨84, _⟩ => ⟨S32x512x512, .f32⟩
  | .hbm, ⟨85, _⟩ => ⟨S_, .f32⟩
  | .hbm, ⟨86, _⟩ => ⟨S32x1x512, .f32⟩
  | .hbm, ⟨87, _⟩ => ⟨S32x1x512, .f32⟩
  | .hbm, ⟨88, _⟩ => ⟨S32x512x512, .f32⟩
  | .hbm, ⟨89, _⟩ => ⟨S32x512x512, .f32⟩
  | .hbm, ⟨90, _⟩ => ⟨S32x512x512, .f32⟩
  | .hbm, ⟨91, _⟩ => ⟨S_, .f32⟩
  | .hbm, ⟨92, _⟩ => ⟨S32x512x512, .f32⟩
  | .hbm, ⟨93, _⟩ => ⟨S32x512x512, .f32⟩
  | .hbm, ⟨94, _⟩ => ⟨S_, .f32⟩
  | .hbm, ⟨95, _⟩ => ⟨S32x512x1, .f32⟩
  | .hbm, ⟨96, _⟩ => ⟨S32x512x1, .f32⟩
  | .hbm, ⟨97, _⟩ => ⟨S_, .f32⟩
  | .hbm, ⟨98, _⟩ => ⟨S32x512x512, .f32⟩
  | .hbm, ⟨99, _⟩ => ⟨S32x512x512, .f32⟩
  | .hbm, ⟨100, _⟩ => ⟨S32x512x512, .f32⟩
  | .hbm, ⟨101, _⟩ => ⟨S32x512x512, .f32⟩
  | .hbm, ⟨102, _⟩ => ⟨S32x512x512, .f32⟩
  | .hbm, ⟨103, _⟩ => ⟨S_, .f32⟩
  | .hbm, ⟨104, _⟩ => ⟨S32x512x1, .f32⟩
  | .hbm, ⟨105, _⟩ => ⟨S32x512x1, .f32⟩
  | .hbm, ⟨106, _⟩ => ⟨S_, .f32⟩
  | .hbm, ⟨107, _⟩ => ⟨S32x1x512, .f32⟩
  | .hbm, ⟨108, _⟩ => ⟨S32x1x512, .f32⟩
  | .hbm, ⟨109, _⟩ => ⟨S32x512x512, .f32⟩
  | .hbm, ⟨110, _⟩ => ⟨S32x512x512, .f32⟩
  | .hbm, ⟨111, _⟩ => ⟨S32x512x512, .f32⟩
  | .hbm, ⟨112, _⟩ => ⟨S32x512x512, .f32⟩
  | .hbm, ⟨113, _⟩ => ⟨S32x512x512, .f32⟩
  | .hbm, ⟨114, _⟩ => ⟨S32x512x512, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_18 : Ref sig .tc := ⟨.hbm, 103, rfl⟩
abbrev main_v72 : Ref sig .tc := ⟨.hbm, 104, rfl⟩
abbrev main_v73 : Ref sig .tc := ⟨.hbm, 105, rfl⟩
abbrev main_cst_19 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  bcast_S_S32x512 : S_.BroadcastsInDim S32x512 (![] : Fin 0 → Fin S32x512.rank)
  transposes_S512x512_S512x512_1_0 : S512x512.Transposes [1, 0] S512x512
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S_S32x512x512 : S_.BroadcastsInDim S32x512x512 (![] : Fin 0 → Fin S32x512x512.rank)
  bcast_S_S32x1x512 : S_.BroadcastsInDim S32x1x512 (![] : Fin 0 → Fin S32x1x512.rank)
  bcast_S32x1x512_S32x512x512_0_1_2 : S32x1x512.BroadcastsInDim S32x512x512 (![0, 1, 2] : Fin 3 → Fin S32x512x512.rank)
  bcast_S_S32x512x1 : S_.BroadcastsInDim S32x512x1 (![] : Fin 0 → Fin S32x512x1.rank)
  bcast_S32x512x1_S32x512x512_0_1_2 : S32x512x1.BroadcastsInDim S32x512x512 (![0, 1, 2] : Fin 3 → Fin S32x512x512.rank)
  dot_S32x512_S512x512_S32x512_1_0_0_1_n_n_wf : DotDims.WF S32x512 S512x512 S32x512 [1] [0] [0] [1] [] []

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf

class Facts : Prop extends Facts₀ where

variable [Facts]
-- ==== Proof.Spec.lean ====
/-
  The correlation-sensor step, index by index.

  A synapse is a cell (b, p, q) of a [32, 512, 512] array: batch entry b, presynaptic unit p, postsynaptic unit q.
  Its three state words are a flag (has the presynaptic unit fired since the postsynaptic one last did), a
  causal trace and an acausal trace. One Euler step reads the presynaptic spike pre (b, p), the postsynaptic
  spike post (b, q) and the cell's own state, nothing else:

    causal'  = causal  * d + (1 * post) * flag
    acausal' = acausal * d + (1 * pre)  * (1 - flag)
    flag'    = pre + ((1 - pre) * (1 - post)) * flag

  with d the single-precision word nearest 0.99 and 1 the word of one. The three functions below are these
  formulas over any float instance, written with the additions and products in exactly this grouping.
-/
import Idealize.ShloMosaic.Lib.ValueIdx

noncomputable section

namespace Cert.Sensor

open Idealize.ShloMosaic Idealize.ShloMosaic.ValueIdx

variable {F : FTy → Type} [FloatOps F]

/-- A synapse (b, p, q). -/
abbrev Cell : Type := (⟨3, ![32, 512, 512]⟩ : Shape).Idx
/-- A unit of one batch entry: (b, p) or (b, q). -/
abbrev Site : Type := (⟨2, ![32, 512]⟩ : Shape).Idx

/-- The presynaptic unit (b, p) of the synapse (b, p, q). -/
abbrev preOf (i : Cell) : Site := ix2 (n0 := 32) (n1 := 512) (i 0) (i 1)
/-- The postsynaptic unit (b, q) of the synapse (b, p, q). -/
abbrev postOf (i : Cell) : Site := ix2 (n0 := 32) (n1 := 512) (i 0) (i 2)

/-- The decay factor of both traces: the single-precision word nearest 0.99. -/
abbrev decay : F .f32 := FloatOps.ofBits .f32 0x3F7D70A4#32
/-- The word of 1.0. -/
abbrev unit : F .f32 := FloatOps.ofBits .f32 0x3F800000#32

/-- The causal trace after the step: decayed, and raised by the flag when the postsynaptic unit fires. -/
def causalStep (post : Site → F .f32) (flag causal : Cell → F .f32) : Cell → F .f32 := fun i =>
  FloatOps.addf (FloatOps.mulf (causal i) decay) (FloatOps.mulf (FloatOps.mulf unit (post (postOf i))) (flag i))

/-- The acausal trace after the step: decayed, and raised by the flag's complement when the presynaptic unit fires. -/
def acausalStep (pre : Site → F .f32) (flag acausal : Cell → F .f32) : Cell → F .f32 := fun i =>
  FloatOps.addf (FloatOps.mulf (acausal i) decay)
    (FloatOps.mulf (FloatOps.mulf unit (pre (preOf i))) (FloatOps.subf unit (flag i)))

/-- The flag after the step: set by a presynaptic spike, cleared by a postsynaptic one, otherwise kept. -/
def flagStep (pre post : Site → F .f32) (flag : Cell → F .f32) : Cell → F .f32 := fun i =>
  FloatOps.addf (pre (preOf i))
    (FloatOps.mulf (FloatOps.mulf (FloatOps.subf unit (pre (preOf i))) (FloatOps.subf unit (post (postOf i)))) (flag i))

end Cert.Sensor

end
-- ==== Proof.RefSynapses.lean ====
/-
  The reference's six synaptic results are the sensor step of its own arguments, index by index.

  Each result of the reference is a tree of whole-array operations: the presynaptic spikes [32, 512] are
  re-laid as [32, 512, 1], the postsynaptic ones as [32, 1, 512], both are stretched to [32, 512, 512], and the
  rest is pointwise. Read at a synapse (b, p, q) a stretched presynaptic array is the spike at (b, p), a stretched
  postsynaptic one the spike at (b, q), and a stretched constant is the constant: what is left is the step's
  formula, the operations in the same grouping. The postsynaptic spikes are the reference's own first result,
  the new spike array of the neuron step.
-/
import proofs.«180544_j75737453298145_2_alg».proof.Proof.Gen.ReferenceIdeal.Read
import proofs.«180544_j75737453298145_2_alg».proof.Proof.Spec

noncomputable section

namespace Cert.ReferenceIdeal.Synapses

open Cert.ReferenceIdeal Cert.ReferenceIdeal.Gen Cert.ReferenceIdeal.Read Cert.Sensor
open Idealize.ShloMosaic Idealize.ShloMosaic.ValueIdx

variable {F : FTy → Type} [FloatOps F]

/-- A unit index with the synapse's batch entry and presynaptic unit is its presynaptic unit: (b, p, q) ↦ (b, p, 0) ↦ (b, p). -/
theorem pre_idx (k : S32x512.Idx) (i : S32x512x512.Idx) (h0 : (k 0).val = (i 0).val) (h1 : (k 1).val = (i 1).val) :
    k = preOf i :=
  funext fun a => Fin.ext (match a with | ⟨0, _⟩ => h0 | ⟨1, _⟩ => h1)

/-- A unit index with the synapse's batch entry and postsynaptic unit is its postsynaptic unit: (b, p, q) ↦ (b, 0, q) ↦ (b, q). -/
theorem post_idx (k : S32x512.Idx) (i : S32x512x512.Idx) (h0 : (k 0).val = (i 0).val) (h2 : (k 1).val = (i 2).val) :
    k = postOf i :=
  funext fun a => Fin.ext (match a with | ⟨0, _⟩ => h0 | ⟨1, _⟩ => h2)

/-- The input-to-hidden causal trace. -/
theorem ic_causal (x2 x3 : (⟨S32x512, .f32⟩ : BufTy).Contents (Elt F)) (x4 x5 : (⟨S32x512x512, .f32⟩ : BufTy).Contents (Elt F)) :
    val_main_v34 (F := F) x2 x3 x4 x5 = causalStep (val_main_v13 (F := F) x2 x3) x4 x5 := by
  funext i
  simp only [val_main_v34_apply, val_main_v29_apply, val_main_v28_apply, val_main_cst_6_apply, val_main_v33_apply,
    val_main_v32_apply, val_main_v31_apply, val_main_v30_apply, val_main_cst_7_apply, val_main_v27_apply]
  rw [post_idx (idx_main_v27 (idx_main_v32 i)) i rfl rfl]
  rfl

/-- The input-to-hidden acausal trace. -/
theorem ic_acausal (x0 : (⟨S32x512, .f32⟩ : BufTy).Contents (Elt F)) (x4 x6 : (⟨S32x512x512, .f32⟩ : BufTy).Contents (Elt F)) :
    val_main_v43 (F := F) x0 x4 x6 = acausalStep x0 x4 x6 := by
  funext i
  simp only [val_main_v43_apply, val_main_v36_apply, val_main_v35_apply, val_main_cst_8_apply, val_main_v42_apply,
    val_main_v41_apply, val_main_v38_apply, val_main_v37_apply, val_main_cst_9_apply, val_main_v26_apply,
    val_main_v40_apply, val_main_v39_apply, val_main_cst_10_apply]
  rw [pre_idx (idx_main_v26 (idx_main_v41 i)) i rfl rfl]
  rfl

/-- The input-to-hidden flag. -/
theorem ic_flag (x0 x2 x3 : (⟨S32x512, .f32⟩ : BufTy).Contents (Elt F)) (x4 : (⟨S32x512x512, .f32⟩ : BufTy).Contents (Elt F)) :
    val_main_v53 (F := F) x0 x2 x3 x4 = flagStep x0 (val_main_v13 (F := F) x2 x3) x4 := by
  funext i
  simp only [val_main_v53_apply, val_main_v52_apply, val_main_v26_apply, val_main_v51_apply, val_main_v50_apply,
    val_main_v48_apply, val_main_v45_apply, val_main_v44_apply, val_main_cst_11_apply, val_main_v49_apply,
    val_main_v47_apply, val_main_v46_apply, val_main_cst_12_apply, val_main_v27_apply]
  rw [pre_idx (idx_main_v26 (idx_main_v52 i)) i rfl rfl, post_idx (idx_main_v27 (idx_main_v49 i)) i rfl rfl]
  rfl

/-- The hidden-to-hidden causal trace. -/
theorem rc_causal (x2 x3 : (⟨S32x512, .f32⟩ : BufTy).Contents (Elt F)) (x7 x8 : (⟨S32x512x512, .f32⟩ : BufTy).Contents (Elt F)) :
    val_main_v62 (F := F) x2 x3 x7 x8 = causalStep (val_main_v13 (F := F) x2 x3) x7 x8 := by
  funext i
  simp only [val_main_v62_apply, val_main_v57_apply, val_main_v56_apply, val_main_cst_13_apply, val_main_v61_apply,
    val_main_v60_apply, val_main_v59_apply, val_main_v58_apply, val_main_cst_14_apply, val_main_v55_apply]
  rw [post_idx (idx_main_v55 (idx_main_v60 i)) i rfl rfl]
  rfl

/-- The hidden-to-hidden acausal trace. -/
theorem rc_acausal (x1 : (⟨S32x512, .f32⟩ : BufTy).Contents (Elt F)) (x7 x9 : (⟨S32x512x512, .f32⟩ : BufTy).Contents (Elt F)) :
    val_main_v71 (F := F) x1 x7 x9 = acausalStep x1 x7 x9 := by
  funext i
  simp only [val_main_v71_apply, val_main_v64_apply, val_main_v63_apply, val_main_cst_15_apply, val_main_v70_apply,
    val_main_v69_apply, val_main_v66_apply, val_main_v65_apply, val_main_cst_16_apply, val_main_v54_apply,
    val_main_v68_apply, val_main_v67_apply, val_main_cst_17_apply]
  rw [pre_idx (idx_main_v54 (idx_main_v69 i)) i rfl rfl]
  rfl

/-- The hidden-to-hidden flag. -/
theorem rc_flag (x1 x2 x3 : (⟨S32x512, .f32⟩ : BufTy).Contents (Elt F)) (x7 : (⟨S32x512x512, .f32⟩ : BufTy).Contents (Elt F)) :
    val_main_v81 (F := F) x1 x2 x3 x7 = flagStep x1 (val_main_v13 (F := F) x2 x3) x7 := by
  funext i
  simp only [val_main_v81_apply, val_main_v80_apply, val_main_v54_apply, val_main_v79_apply, val_main_v78_apply,
    val_main_v76_apply, val_main_v73_apply, val_main_v72_apply, val_main_cst_18_apply, val_main_v77_apply,
    val_main_v75_apply, val_main_v74_apply, val_main_cst_19_apply, val_main_v55_apply]
  rw [pre_idx (idx_main_v54 (idx_main_v80 i)) i rfl rfl, post_idx (idx_main_v55 (idx_main_v77 i)) i rfl rfl]
  rfl

end Cert.ReferenceIdeal.Synapses

end
-- ==== Proof.KernelNeuron.lean ====
/-
  The neuron step, which both programs compute on the host, is one function of the arguments.

  Before it launches its kernel the program computes, with whole-array operations, the decayed membrane
  voltage, the new spikes (one where the decayed voltage exceeds the threshold, zero elsewhere), the reset voltage
  and the new synaptic current (the decayed current plus the two matrix products). These are the same operations,
  on the same literals, in the same order as the first operations of the reference, so each of the three arrays
  is literally the reference's term for it; the kernel then reads the new spikes as its postsynaptic spikes.
-/
import proofs.«180544_j75737453298145_2_alg».proof.Proof.Gen.KernelIdeal.Frame
import proofs.«180544_j75737453298145_2_alg».proof.Proof.Gen.ReferenceIdeal.Read
import Idealize.ShloMosaic.Lib.StableHlo.Run

noncomputable section

namespace Cert.KernelIdeal.Neuron

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- When the kernel is launched the spike buffer holds the new spikes of the neuron step. -/
theorem spikes (c : Dev nD) :
    V m c main_v13 = Cert.ReferenceIdeal.Read.val_main_v13 (F := F) (m ((c : Thread nD τ).loc main_arg2)) (m ((c : Thread nD τ).loc main_arg3)) := by
  dsimp only [V, hostOps0]
  after_results
  rfl

set_option maxHeartbeats 4000000 in
/-- … the voltage buffer the reset voltage. -/
theorem voltage (c : Dev nD) :
    V m c main_v19 = Cert.ReferenceIdeal.Read.val_main_v19 (F := F) (m ((c : Thread nD τ).loc main_arg2)) (m ((c : Thread nD τ).loc main_arg3)) := by
  dsimp only [V, hostOps0]
  after_results_simp
  rfl

set_option maxHeartbeats 4000000 in
/-- … and the current buffer the new synaptic current. -/
theorem current (c : Dev nD) :
    V m c main_v25 = Cert.ReferenceIdeal.Read.val_main_v25 (F := F) (m ((c : Thread nD τ).loc main_arg0)) (m ((c : Thread nD τ).loc main_arg1)) (m ((c : Thread nD τ).loc main_arg3)) (m ((c : Thread nD τ).loc main_arg10)) (m ((c : Thread nD τ).loc main_arg11)) := by
  dsimp only [V, hostOps0]
  after_results_simp
  rfl

end Cert.KernelIdeal.Neuron

end
-- ==== Proof.KernelBlocks.lean ====
/-
  Where the kernel's blocks sit in the arrays.

  The grid is 4 × 4. At the point with coordinates (g, h) every synaptic array — the six state arrays read and the
  six written — is staged as the block of batch entries 8g … 8g + 7, all 512 presynaptic units, postsynaptic units
  128h … 128h + 127; the two presynaptic spike arrays as rows 8g … 8g + 7 with all 512 units; the postsynaptic spike
  array as rows 8g … 8g + 7, units 128h … 128h + 127. So the entry (y0, y1, y2) of a synaptic block is the synapse
  (8g + y0, y1, 128h + y2), whose presynaptic unit is entry (y0, y1) of the presynaptic block and whose postsynaptic
  unit is entry (y0, y2) of the postsynaptic block. The sixteen output blocks tile each output array.
-/
import proofs.«180544_j75737453298145_2_alg».proof.Proof.Gen.KernelIdeal.Value
import proofs.«180544_j75737453298145_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Cert.Sensor

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices, decided over the sixteen points: every synaptic window has window 9's block index, which is
    (g, 0, h) with g, h ≤ 3; the presynaptic windows have (g, 0), the postsynaptic one (g, h). -/
theorem block_indices : ∀ t : Fin cfg0.N,
    win0_3.index t = win0_9.index t ∧ win0_4.index t = win0_9.index t ∧ win0_5.index t = win0_9.index t
    ∧ win0_6.index t = win0_9.index t ∧ win0_7.index t = win0_9.index t ∧ win0_8.index t = win0_9.index t
    ∧ win0_10.index t = win0_9.index t ∧ win0_11.index t = win0_9.index t ∧ win0_12.index t = win0_9.index t
    ∧ win0_13.index t = win0_9.index t ∧ win0_14.index t = win0_9.index t
    ∧ win0_0.index t (0 : Fin 2) = win0_9.index t (0 : Fin 3) ∧ win0_0.index t (1 : Fin 2) = 0
    ∧ win0_1.index t (0 : Fin 2) = win0_9.index t (0 : Fin 3) ∧ win0_1.index t (1 : Fin 2) = 0
    ∧ win0_2.index t (0 : Fin 2) = win0_9.index t (0 : Fin 3) ∧ win0_2.index t (1 : Fin 2) = win0_9.index t (2 : Fin 3)
    ∧ win0_9.index t (0 : Fin 3) ≤ 3 ∧ win0_9.index t (1 : Fin 3) = 0 ∧ win0_9.index t (2 : Fin 3) ≤ 3 :=
  (by decide +kernel : ∀ t : Fin grid0.N, _)

/-- Every block (g, 0, h) is some point's. -/
theorem block_onto : ∀ (g h : Fin 4), ∃ t : Fin cfg0.N, win0_9.index t = ![g.val, 0, h.val] :=
  (by decide +kernel : ∀ (g h : Fin 4), ∃ t : Fin grid0.N, win0_9.index t = ![g.val, 0, h.val])

/-! ## The input blocks, read at an entry -/

/-- Entry (x0, x1) of the first presynaptic block is the spike at (8g + x0, x1). -/
theorem pre0_apply (c : Dev nD) (t : Fin cfg0.N) (x : S8x512.Idx) (k : S32x512.Idx)
    (hk0 : (k 0).val = win0_9.index t (0 : Fin 3) * 8 + (x 0).val) (hk1 : (k 1).val = (x 1).val) :
    (iblk m c 0 t : Vec F S8x512 .f32) x = (V m c main_arg0 : S32x512.Idx → Elt F .f32) k := by
  obtain ⟨e3, e4, e5, e6, e7, e8, e10, e11, e12, e13, e14, p00, p01, p10, p11, q0, q1, g3, z1, h3⟩ := block_indices t
  unfold iblk
  rw [View.read_apply]
  show V m c main_arg0 _ = V m c main_arg0 _
  congr 1
  funext a
  apply Fin.ext
  match a with
  | ⟨0, _⟩ => show win0_0.index t (0 : Fin 2) * 8 + 1 * (x 0).val = (k 0).val; rw [hk0, p00]; omega
  | ⟨1, _⟩ => show win0_0.index t (1 : Fin 2) * 512 + 1 * (x 1).val = (k 1).val; rw [hk1, p01]; omega

/-- Entry (x0, x1) of the second presynaptic block is the spike at (8g + x0, x1). -/
theorem pre1_apply (c : Dev nD) (t : Fin cfg0.N) (x : S8x512.Idx) (k : S32x512.Idx)
    (hk0 : (k 0).val = win0_9.index t (0 : Fin 3) * 8 + (x 0).val) (hk1 : (k 1).val = (x 1).val) :
    (iblk m c 1 t : Vec F S8x512 .f32) x = (V m c main_arg1 : S32x512.Idx → Elt F .f32) k := by
  obtain ⟨e3, e4, e5, e6, e7, e8, e10, e11, e12, e13, e14, p00, p01, p10, p11, q0, q1, g3, z1, h3⟩ := block_indices t
  unfold iblk
  rw [View.read_apply]
  show V m c main_arg1 _ = V m c main_arg1 _
  congr 1
  funext a
  apply Fin.ext
  match a with
  | ⟨0, _⟩ => show win0_1.index t (0 : Fin 2) * 8 + 1 * (x 0).val = (k 0).val; rw [hk0, p10]; omega
  | ⟨1, _⟩ => show win0_1.index t (1 : Fin 2) * 512 + 1 * (x 1).val = (k 1).val; rw [hk1, p11]; omega

/-- Entry (x0, x2) of the postsynaptic block is the spike at (8g + x0, 128h + x2). -/
theorem post_apply (c : Dev nD) (t : Fin cfg0.N) (x : S8x128.Idx) (k : S32x512.Idx)
    (hk0 : (k 0).val = win0_9.index t (0 : Fin 3) * 8 + (x 0).val) (hk1 : (k 1).val = win0_9.index t (2 : Fin 3) * 128 + (x 1).val) :
    (iblk m c 2 t : Vec F S8x128 .f32) x = (V m c main_v13 : S32x512.Idx → Elt F .f32) k := by
  obtain ⟨e3, e4, e5, e6, e7, e8, e10, e11, e12, e13, e14, p00, p01, p10, p11, q0, q1, g3, z1, h3⟩ := block_indices t
  unfold iblk
  rw [View.read_apply]
  show V m c main_v13 _ = V m c main_v13 _
  congr 1
  funext a
  apply Fin.ext
  match a with
  | ⟨0, _⟩ => show win0_2.index t (0 : Fin 2) * 8 + 1 * (x 0).val = (k 0).val; rw [hk0, q0]; omega
  | ⟨1, _⟩ => show win0_2.index t (1 : Fin 2) * 128 + 1 * (x 1).val = (k 1).val; rw [hk1, q1]; omega

/-- Entry (x0, x1, x2) of window 3's block is its array at the synapse (8g + x0, x1, 128h + x2). -/
theorem syn3_apply (c : Dev nD) (t : Fin cfg0.N) (x : S8x512x128.Idx) (k : S32x512x512.Idx)
    (hk0 : (k 0).val = win0_9.index t (0 : Fin 3) * 8 + (x 0).val) (hk1 : (k 1).val = (x 1).val)
    (hk2 : (k 2).val = win0_9.index t (2 : Fin 3) * 128 + (x 2).val) :
    (iblk m c 3 t : Vec F S8x512x128 .f32) x = (V m c main_arg4 : S32x512x512.Idx → Elt F .f32) k := by
  obtain ⟨e3, e4, e5, e6, e7, e8, e10, e11, e12, e13, e14, p00, p01, p10, p11, q0, q1, g3, z1, h3⟩ := block_indices t
  unfold iblk
  rw [View.read_apply]
  show V m c main_arg4 _ = V m c main_arg4 _
  congr 1
  funext a
  apply Fin.ext
  match a with
  | ⟨0, _⟩ => show win0_3.index t (0 : Fin 3) * 8 + 1 * (x 0).val = (k 0).val; rw [hk0, e3]; omega
  | ⟨1, _⟩ => show win0_3.index t (1 : Fin 3) * 512 + 1 * (x 1).val = (k 1).val; rw [hk1, e3, z1]; omega
  | ⟨2, _⟩ => show win0_3.index t (2 : Fin 3) * 128 + 1 * (x 2).val = (k 2).val; rw [hk2, e3]; omega

/-- Entry (x0, x1, x2) of window 4's block is its array at the synapse (8g + x0, x1, 128h + x2). -/
theorem syn4_apply (c : Dev nD) (t : Fin cfg0.N) (x : S8x512x128.Idx) (k : S32x512x512.Idx)
    (hk0 : (k 0).val = win0_9.index t (0 : Fin 3) * 8 + (x 0).val) (hk1 : (k 1).val = (x 1).val)
    (hk2 : (k 2).val = win0_9.index t (2 : Fin 3) * 128 + (x 2).val) :
    (iblk m c 4 t : Vec F S8x512x128 .f32) x = (V m c main_arg5 : S32x512x512.Idx → Elt F .f32) k := by
  obtain ⟨e3, e4, e5, e6, e7, e8, e10, e11, e12, e13, e14, p00, p01, p10, p11, q0, q1, g3, z1, h3⟩ := block_indices t
  unfold iblk
  rw [View.read_apply]
  show V m c main_arg5 _ = V m c main_arg5 _
  congr 1
  funext a
  apply Fin.ext
  match a with
  | ⟨0, _⟩ => show win0_4.index t (0 : Fin 3) * 8 + 1 * (x 0).val = (k 0).val; rw [hk0, e4]; omega
  | ⟨1, _⟩ => show win0_4.index t (1 : Fin 3) * 512 + 1 * (x 1).val = (k 1).val; rw [hk1, e4, z1]; omega
  | ⟨2, _⟩ => show win0_4.index t (2 : Fin 3) * 128 + 1 * (x 2).val = (k 2).val; rw [hk2, e4]; omega

/-- Entry (x0, x1, x2) of window 5's block is its array at the synapse (8g + x0, x1, 128h + x2). -/
theorem syn5_apply (c : Dev nD) (t : Fin cfg0.N) (x : S8x512x128.Idx) (k : S32x512x512.Idx)
    (hk0 : (k 0).val = win0_9.index t (0 : Fin 3) * 8 + (x 0).val) (hk1 : (k 1).val = (x 1).val)
    (hk2 : (k 2).val = win0_9.index t (2 : Fin 3) * 128 + (x 2).val) :
    (iblk m c 5 t : Vec F S8x512x128 .f32) x = (V m c main_arg6 : S32x512x512.Idx → Elt F .f32) k := by
  obtain ⟨e3, e4, e5, e6, e7, e8, e10, e11, e12, e13, e14, p00, p01, p10, p11, q0, q1, g3, z1, h3⟩ := block_indices t
  unfold iblk
  rw [View.read_apply]
  show V m c main_arg6 _ = V m c main_arg6 _
  congr 1
  funext a
  apply Fin.ext
  match a with
  | ⟨0, _⟩ => show win0_5.index t (0 : Fin 3) * 8 + 1 * (x 0).val = (k 0).val; rw [hk0, e5]; omega
  | ⟨1, _⟩ => show win0_5.index t (1 : Fin 3) * 512 + 1 * (x 1).val = (k 1).val; rw [hk1, e5, z1]; omega
  | ⟨2, _⟩ => show win0_5.index t (2 : Fin 3) * 128 + 1 * (x 2).val = (k 2).val; rw [hk2, e5]; omega

/-- Entry (x0, x1, x2) of window 6's block is its array at the synapse (8g + x0, x1, 128h + x2). -/
theorem syn6_apply (c : Dev nD) (t : Fin cfg0.N) (x : S8x512x128.Idx) (k : S32x512x512.Idx)
    (hk0 : (k 0).val = win0_9.index t (0 : Fin 3) * 8 + (x 0).val) (hk1 : (k 1).val = (x 1).val)
    (hk2 : (k 2).val = win0_9.index t (2 : Fin 3) * 128 + (x 2).val) :
    (iblk m c 6 t : Vec F S8x512x128 .f32) x = (V m c main_arg7 : S32x512x512.Idx → Elt F .f32) k := by
  obtain ⟨e3, e4, e5, e6, e7, e8, e10, e11, e12, e13, e14, p00, p01, p10, p11, q0, q1, g3, z1, h3⟩ := block_indices t
  unfold iblk
  rw [View.read_apply]
  show V m c main_arg7 _ = V m c main_arg7 _
  congr 1
  funext a
  apply Fin.ext
  match a with
  | ⟨0, _⟩ => show win0_6.index t (0 : Fin 3) * 8 + 1 * (x 0).val = (k 0).val; rw [hk0, e6]; omega
  | ⟨1, _⟩ => show win0_6.index t (1 : Fin 3) * 512 + 1 * (x 1).val = (k 1).val; rw [hk1, e6, z1]; omega
  | ⟨2, _⟩ => show win0_6.index t (2 : Fin 3) * 128 + 1 * (x 2).val = (k 2).val; rw [hk2, e6]; omega

/-- Entry (x0, x1, x2) of window 7's block is its array at the synapse (8g + x0, x1, 128h + x2). -/
theorem syn7_apply (c : Dev nD) (t : Fin cfg0.N) (x : S8x512x128.Idx) (k : S32x512x512.Idx)
    (hk0 : (k 0).val = win0_9.index t (0 : Fin 3) * 8 + (x 0).val) (hk1 : (k 1).val = (x 1).val)
    (hk2 : (k 2).val = win0_9.index t (2 : Fin 3) * 128 + (x 2).val) :
    (iblk m c 7 t : Vec F S8x512x128 .f32) x = (V m c main_arg8 : S32x512x512.Idx → Elt F .f32) k := by
  obtain ⟨e3, e4, e5, e6, e7, e8, e10, e11, e12, e13, e14, p00, p01, p10, p11, q0, q1, g3, z1, h3⟩ := block_indices t
  unfold iblk
  rw [View.read_apply]
  show V m c main_arg8 _ = V m c main_arg8 _
  congr 1
  funext a
  apply Fin.ext
  match a with
  | ⟨0, _⟩ => show win0_7.index t (0 : Fin 3) * 8 + 1 * (x 0).val = (k 0).val; rw [hk0, e7]; omega
  | ⟨1, _⟩ => show win0_7.index t (1 : Fin 3) * 512 + 1 * (x 1).val = (k 1).val; rw [hk1, e7, z1]; omega
  | ⟨2, _⟩ => show win0_7.index t (2 : Fin 3) * 128 + 1 * (x 2).val = (k 2).val; rw [hk2, e7]; omega

/-- Entry (x0, x1, x2) of window 8's block is its array at the synapse (8g + x0, x1, 128h + x2). -/
theorem syn8_apply (c : Dev nD) (t : Fin cfg0.N) (x : S8x512x128.Idx) (k : S32x512x512.Idx)
    (hk0 : (k 0).val = win0_9.index t (0 : Fin 3) * 8 + (x 0).val) (hk1 : (k 1).val = (x 1).val)
    (hk2 : (k 2).val = win0_9.index t (2 : Fin 3) * 128 + (x 2).val) :
    (iblk m c 8 t : Vec F S8x512x128 .f32) x = (V m c main_arg9 : S32x512x512.Idx → Elt F .f32) k := by
  obtain ⟨e3, e4, e5, e6, e7, e8, e10, e11, e12, e13, e14, p00, p01, p10, p11, q0, q1, g3, z1, h3⟩ := block_indices t
  unfold iblk
  rw [View.read_apply]
  show V m c main_arg9 _ = V m c main_arg9 _
  congr 1
  funext a
  apply Fin.ext
  match a with
  | ⟨0, _⟩ => show win0_8.index t (0 : Fin 3) * 8 + 1 * (x 0).val = (k 0).val; rw [hk0, e8]; omega
  | ⟨1, _⟩ => show win0_8.index t (1 : Fin 3) * 512 + 1 * (x 1).val = (k 1).val; rw [hk1, e8, z1]; omega
  | ⟨2, _⟩ => show win0_8.index t (2 : Fin 3) * 128 + 1 * (x 2).val = (k 2).val; rw [hk2, e8]; omega

/-! ## The output blocks -/

/-- Entry (y0, y1, y2) of output window 9's block is the synapse (8g + y0, y1, 128h + y2). -/
theorem out9_coords (t : Fin cfg0.N) (y : S8x512x128.Idx) :
    ((((cfg0.win 9).blk t).view.emb y : S32x512x512.Idx) 0).val = win0_9.index t (0 : Fin 3) * 8 + (y 0).val
    ∧ ((((cfg0.win 9).blk t).view.emb y : S32x512x512.Idx) 1).val = (y 1).val
    ∧ ((((cfg0.win 9).blk t).view.emb y : S32x512x512.Idx) 2).val = win0_9.index t (2 : Fin 3) * 128 + (y 2).val := by
  obtain ⟨e3, e4, e5, e6, e7, e8, e10, e11, e12, e13, e14, p00, p01, p10, p11, q0, q1, g3, z1, h3⟩ := block_indices t
  refine ⟨?_, ?_, ?_⟩
  · show win0_9.index t (0 : Fin 3) * 8 + 1 * (y 0).val = _; omega
  · show win0_9.index t (1 : Fin 3) * 512 + 1 * (y 1).val = _; rw [z1]; omega
  · show win0_9.index t (2 : Fin 3) * 128 + 1 * (y 2).val = _; omega

/-- Entry (y0, y1, y2) of output window 10's block is the synapse (8g + y0, y1, 128h + y2). -/
theorem out10_coords (t : Fin cfg0.N) (y : S8x512x128.Idx) :
    ((((cfg0.win 10).blk t).view.emb y : S32x512x512.Idx) 0).val = win0_9.index t (0 : Fin 3) * 8 + (y 0).val
    ∧ ((((cfg0.win 10).blk t).view.emb y : S32x512x512.Idx) 1).val = (y 1).val
    ∧ ((((cfg0.win 10).blk t).view.emb y : S32x512x512.Idx) 2).val = win0_9.index t (2 : Fin 3) * 128 + (y 2).val := by
  obtain ⟨e3, e4, e5, e6, e7, e8, e10, e11, e12, e13, e14, p00, p01, p10, p11, q0, q1, g3, z1, h3⟩ := block_indices t
  refine ⟨?_, ?_, ?_⟩
  · show win0_10.index t (0 : Fin 3) * 8 + 1 * (y 0).val = _; rw [e10]; omega
  · show win0_10.index t (1 : Fin 3) * 512 + 1 * (y 1).val = _; rw [e10, z1]; omega
  · show win0_10.index t (2 : Fin 3) * 128 + 1 * (y 2).val = _; rw [e10]; omega

/-- Entry (y0, y1, y2) of output window 11's block is the synapse (8g + y0, y1, 128h + y2). -/
theorem out11_coords (t : Fin cfg0.N) (y : S8x512x128.Idx) :
    ((((cfg0.win 11).blk t).view.emb y : S32x512x512.Idx) 0).val = win0_9.index t (0 : Fin 3) * 8 + (y 0).val
    ∧ ((((cfg0.win 11).blk t).view.emb y : S32x512x512.Idx) 1).val = (y 1).val
    ∧ ((((cfg0.win 11).blk t).view.emb y : S32x512x512.Idx) 2).val = win0_9.index t (2 : Fin 3) * 128 + (y 2).val := by
  obtain ⟨e3, e4, e5, e6, e7, e8, e10, e11, e12, e13, e14, p00, p01, p10, p11, q0, q1, g3, z1, h3⟩ := block_indices t
  refine ⟨?_, ?_, ?_⟩
  · show win0_11.index t (0 : Fin 3) * 8 + 1 * (y 0).val = _; rw [e11]; omega
  · show win0_11.index t (1 : Fin 3) * 512 + 1 * (y 1).val = _; rw [e11, z1]; omega
  · show win0_11.index t (2 : Fin 3) * 128 + 1 * (y 2).val = _; rw [e11]; omega

/-- Entry (y0, y1, y2) of output window 12's block is the synapse (8g + y0, y1, 128h + y2). -/
theorem out12_coords (t : Fin cfg0.N) (y : S8x512x128.Idx) :
    ((((cfg0.win 12).blk t).view.emb y : S32x512x512.Idx) 0).val = win0_9.index t (0 : Fin 3) * 8 + (y 0).val
    ∧ ((((cfg0.win 12).blk t).view.emb y : S32x512x512.Idx) 1).val = (y 1).val
    ∧ ((((cfg0.win 12).blk t).view.emb y : S32x512x512.Idx) 2).val = win0_9.index t (2 : Fin 3) * 128 + (y 2).val := by
  obtain ⟨e3, e4, e5, e6, e7, e8, e10, e11, e12, e13, e14, p00, p01, p10, p11, q0, q1, g3, z1, h3⟩ := block_indices t
  refine ⟨?_, ?_, ?_⟩
  · show win0_12.index t (0 : Fin 3) * 8 + 1 * (y 0).val = _; rw [e12]; omega
  · show win0_12.index t (1 : Fin 3) * 512 + 1 * (y 1).val = _; rw [e12, z1]; omega
  · show win0_12.index t (2 : Fin 3) * 128 + 1 * (y 2).val = _; rw [e12]; omega

/-- Entry (y0, y1, y2) of output window 13's block is the synapse (8g + y0, y1, 128h + y2). -/
theorem out13_coords (t : Fin cfg0.N) (y : S8x512x128.Idx) :
    ((((cfg0.win 13).blk t).view.emb y : S32x512x512.Idx) 0).val = win0_9.index t (0 : Fin 3) * 8 + (y 0).val
    ∧ ((((cfg0.win 13).blk t).view.emb y : S32x512x512.Idx) 1).val = (y 1).val
    ∧ ((((cfg0.win 13).blk t).view.emb y : S32x512x512.Idx) 2).val = win0_9.index t (2 : Fin 3) * 128 + (y 2).val := by
  obtain ⟨e3, e4, e5, e6, e7, e8, e10, e11, e12, e13, e14, p00, p01, p10, p11, q0, q1, g3, z1, h3⟩ := block_indices t
  refine ⟨?_, ?_, ?_⟩
  · show win0_13.index t (0 : Fin 3) * 8 + 1 * (y 0).val = _; rw [e13]; omega
  · show win0_13.index t (1 : Fin 3) * 512 + 1 * (y 1).val = _; rw [e13, z1]; omega
  · show win0_13.index t (2 : Fin 3) * 128 + 1 * (y 2).val = _; rw [e13]; omega

/-- Entry (y0, y1, y2) of output window 14's block is the synapse (8g + y0, y1, 128h + y2). -/
theorem out14_coords (t : Fin cfg0.N) (y : S8x512x128.Idx) :
    ((((cfg0.win 14).blk t).view.emb y : S32x512x512.Idx) 0).val = win0_9.index t (0 : Fin 3) * 8 + (y 0).val
    ∧ ((((cfg0.win 14).blk t).view.emb y : S32x512x512.Idx) 1).val = (y 1).val
    ∧ ((((cfg0.win 14).blk t).view.emb y : S32x512x512.Idx) 2).val = win0_9.index t (2 : Fin 3) * 128 + (y 2).val := by
  obtain ⟨e3, e4, e5, e6, e7, e8, e10, e11, e12, e13, e14, p00, p01, p10, p11, q0, q1, g3, z1, h3⟩ := block_indices t
  refine ⟨?_, ?_, ?_⟩
  · show win0_14.index t (0 : Fin 3) * 8 + 1 * (y 0).val = _; rw [e14]; omega
  · show win0_14.index t (1 : Fin 3) * 512 + 1 * (y 1).val = _; rw [e14, z1]; omega
  · show win0_14.index t (2 : Fin 3) * 128 + 1 * (y 2).val = _; rw [e14]; omega

/-! ## The output blocks tile their arrays -/

/-- A synapse is in point t's block of output window 9 iff each coordinate is in the block's range on its axis. -/
theorem mem_blk9 (t : Fin cfg0.N) (i : S32x512x512.Idx) :
    i ∈ ((cfg0.win 9).blk t).view.set ↔ ∀ a : Fin 3, win0_9.index t a * S8x512x128.size a ≤ (i a).val ∧ (i a).val < win0_9.index t a * S8x512x128.size a + S8x512x128.size a := by
  show i ∈ ((View.whole main_v26_0).slice (win0_9.rect t)).set ↔ _
  rw [View.set_slice_whole, Rect.mem_set_unit]
  exact Iff.rfl

/-- Every synapse (b, p, q) is in the block that the point (b / 8, q / 128) writes back to output window 9. -/
theorem cover9 (i : S32x512x512.Idx) :
    ∃ t : Fin cfg0.N, (cfg0.win 9).flush t = true ∧ i ∈ ((cfg0.win 9).blk t).view.set := by
  have hi0 : (i 0).val < 32 := (i 0).isLt
  have hi1 : (i 1).val < 512 := (i 1).isLt
  have hi2 : (i 2).val < 512 := (i 2).isLt
  obtain ⟨t, ht⟩ := block_onto ⟨(i 0).val / 8, by omega⟩ ⟨(i 2).val / 128, by omega⟩
  obtain ⟨e3, e4, e5, e6, e7, e8, e10, e11, e12, e13, e14, p00, p01, p10, p11, q0, q1, g3, z1, h3⟩ := block_indices t
  have r0 : win0_9.index t (0 : Fin 3) = (i 0).val / 8 := congrFun ht 0
  have r2 : win0_9.index t (2 : Fin 3) = (i 2).val / 128 := congrFun ht 2
  refine ⟨t, flush0_9 t, ?_⟩
  rw [mem_blk9]
  intro a
  match a with
  | ⟨0, _⟩ => show win0_9.index t (0 : Fin 3) * 8 ≤ (i 0).val ∧ (i 0).val < win0_9.index t (0 : Fin 3) * 8 + 8; rw [r0]; omega
  | ⟨1, _⟩ => show win0_9.index t (1 : Fin 3) * 512 ≤ (i 1).val ∧ (i 1).val < win0_9.index t (1 : Fin 3) * 512 + 512; rw [z1]; omega
  | ⟨2, _⟩ => show win0_9.index t (2 : Fin 3) * 128 ≤ (i 2).val ∧ (i 2).val < win0_9.index t (2 : Fin 3) * 128 + 128; rw [r2]; omega

/-- A synapse is in point t's block of output window 10 iff each coordinate is in the block's range on its axis. -/
theorem mem_blk10 (t : Fin cfg0.N) (i : S32x512x512.Idx) :
    i ∈ ((cfg0.win 10).blk t).view.set ↔ ∀ a : Fin 3, win0_10.index t a * S8x512x128.size a ≤ (i a).val ∧ (i a).val < win0_10.index t a * S8x512x128.size a + S8x512x128.size a := by
  show i ∈ ((View.whole main_v26_1).slice (win0_10.rect t)).set ↔ _
  rw [View.set_slice_whole, Rect.mem_set_unit]
  exact Iff.rfl

/-- Every synapse (b, p, q) is in the block that the point (b / 8, q / 128) writes back to output window 10. -/
theorem cover10 (i : S32x512x512.Idx) :
    ∃ t : Fin cfg0.N, (cfg0.win 10).flush t = true ∧ i ∈ ((cfg0.win 10).blk t).view.set := by
  have hi0 : (i 0).val < 32 := (i 0).isLt
  have hi1 : (i 1).val < 512 := (i 1).isLt
  have hi2 : (i 2).val < 512 := (i 2).isLt
  obtain ⟨t, ht⟩ := block_onto ⟨(i 0).val / 8, by omega⟩ ⟨(i 2).val / 128, by omega⟩
  obtain ⟨e3, e4, e5, e6, e7, e8, e10, e11, e12, e13, e14, p00, p01, p10, p11, q0, q1, g3, z1, h3⟩ := block_indices t
  have r0 : win0_9.index t (0 : Fin 3) = (i 0).val / 8 := congrFun ht 0
  have r2 : win0_9.index t (2 : Fin 3) = (i 2).val / 128 := congrFun ht 2
  refine ⟨t, flush0_10 t, ?_⟩
  rw [mem_blk10]
  intro a
  match a with
  | ⟨0, _⟩ => show win0_10.index t (0 : Fin 3) * 8 ≤ (i 0).val ∧ (i 0).val < win0_10.index t (0 : Fin 3) * 8 + 8; rw [e10, r0]; omega
  | ⟨1, _⟩ => show win0_10.index t (1 : Fin 3) * 512 ≤ (i 1).val ∧ (i 1).val < win0_10.index t (1 : Fin 3) * 512 + 512; rw [e10, z1]; omega
  | ⟨2, _⟩ => show win0_10.index t (2 : Fin 3) * 128 ≤ (i 2).val ∧ (i 2).val < win0_10.index t (2 : Fin 3) * 128 + 128; rw [e10, r2]; omega

/-- A synapse is in point t's block of output window 11 iff each coordinate is in the block's range on its axis. -/
theorem mem_blk11 (t : Fin cfg0.N) (i : S32x512x512.Idx) :
    i ∈ ((cfg0.win 11).blk t).view.set ↔ ∀ a : Fin 3, win0_11.index t a * S8x512x128.size a ≤ (i a).val ∧ (i a).val < win0_11.index t a * S8x512x128.size a + S8x512x128.size a := by
  show i ∈ ((View.whole main_v26_2).slice (win0_11.rect t)).set ↔ _
  rw [View.set_slice_whole, Rect.mem_set_unit]
  exact Iff.rfl

/-- Every synapse (b, p, q) is in the block that the point (b / 8, q / 128) writes back to output window 11. -/
theorem cover11 (i : S32x512x512.Idx) :
    ∃ t : Fin cfg0.N, (cfg0.win 11).flush t = true ∧ i ∈ ((cfg0.win 11).blk t).view.set := by
  have hi0 : (i 0).val < 32 := (i 0).isLt
  have hi1 : (i 1).val < 512 := (i 1).isLt
  have hi2 : (i 2).val < 512 := (i 2).isLt
  obtain ⟨t, ht⟩ := block_onto ⟨(i 0).val / 8, by omega⟩ ⟨(i 2).val / 128, by omega⟩
  obtain ⟨e3, e4, e5, e6, e7, e8, e10, e11, e12, e13, e14, p00, p01, p10, p11, q0, q1, g3, z1, h3⟩ := block_indices t
  have r0 : win0_9.index t (0 : Fin 3) = (i 0).val / 8 := congrFun ht 0
  have r2 : win0_9.index t (2 : Fin 3) = (i 2).val / 128 := congrFun ht 2
  refine ⟨t, flush0_11 t, ?_⟩
  rw [mem_blk11]
  intro a
  match a with
  | ⟨0, _⟩ => show win0_11.index t (0 : Fin 3) * 8 ≤ (i 0).val ∧ (i 0).val < win0_11.index t (0 : Fin 3) * 8 + 8; rw [e11, r0]; omega
  | ⟨1, _⟩ => show win0_11.index t (1 : Fin 3) * 512 ≤ (i 1).val ∧ (i 1).val < win0_11.index t (1 : Fin 3) * 512 + 512; rw [e11, z1]; omega
  | ⟨2, _⟩ => show win0_11.index t (2 : Fin 3) * 128 ≤ (i 2).val ∧ (i 2).val < win0_11.index t (2 : Fin 3) * 128 + 128; rw [e11, r2]; omega

/-- A synapse is in point t's block of output window 12 iff each coordinate is in the block's range on its axis. -/
theorem mem_blk12 (t : Fin cfg0.N) (i : S32x512x512.Idx) :
    i ∈ ((cfg0.win 12).blk t).view.set ↔ ∀ a : Fin 3, win0_12.index t a * S8x512x128.size a ≤ (i a).val ∧ (i a).val < win0_12.index t a * S8x512x128.size a + S8x512x128.size a := by
  show i ∈ ((View.whole main_v26_3).slice (win0_12.rect t)).set ↔ _
  rw [View.set_slice_whole, Rect.mem_set_unit]
  exact Iff.rfl

/-- Every synapse (b, p, q) is in the block that the point (b / 8, q / 128) writes back to output window 12. -/
theorem cover12 (i : S32x512x512.Idx) :
    ∃ t : Fin cfg0.N, (cfg0.win 12).flush t = true ∧ i ∈ ((cfg0.win 12).blk t).view.set := by
  have hi0 : (i 0).val < 32 := (i 0).isLt
  have hi1 : (i 1).val < 512 := (i 1).isLt
  have hi2 : (i 2).val < 512 := (i 2).isLt
  obtain ⟨t, ht⟩ := block_onto ⟨(i 0).val / 8, by omega⟩ ⟨(i 2).val / 128, by omega⟩
  obtain ⟨e3, e4, e5, e6, e7, e8, e10, e11, e12, e13, e14, p00, p01, p10, p11, q0, q1, g3, z1, h3⟩ := block_indices t
  have r0 : win0_9.index t (0 : Fin 3) = (i 0).val / 8 := congrFun ht 0
  have r2 : win0_9.index t (2 : Fin 3) = (i 2).val / 128 := congrFun ht 2
  refine ⟨t, flush0_12 t, ?_⟩
  rw [mem_blk12]
  intro a
  match a with
  | ⟨0, _⟩ => show win0_12.index t (0 : Fin 3) * 8 ≤ (i 0).val ∧ (i 0).val < win0_12.index t (0 : Fin 3) * 8 + 8; rw [e12, r0]; omega
  | ⟨1, _⟩ => show win0_12.index t (1 : Fin 3) * 512 ≤ (i 1).val ∧ (i 1).val < win0_12.index t (1 : Fin 3) * 512 + 512; rw [e12, z1]; omega
  | ⟨2, _⟩ => show win0_12.index t (2 : Fin 3) * 128 ≤ (i 2).val ∧ (i 2).val < win0_12.index t (2 : Fin 3) * 128 + 128; rw [e12, r2]; omega

/-- A synapse is in point t's block of output window 13 iff each coordinate is in the block's range on its axis. -/
theorem mem_blk13 (t : Fin cfg0.N) (i : S32x512x512.Idx) :
    i ∈ ((cfg0.win 13).blk t).view.set ↔ ∀ a : Fin 3, win0_13.index t a * S8x512x128.size a ≤ (i a).val ∧ (i a).val < win0_13.index t a * S8x512x128.size a + S8x512x128.size a := by
  show i ∈ ((View.whole main_v26_4).slice (win0_13.rect t)).set ↔ _
  rw [View.set_slice_whole, Rect.mem_set_unit]
  exact Iff.rfl

/-- Every synapse (b, p, q) is in the block that the point (b / 8, q / 128) writes back to output window 13. -/
theorem cover13 (i : S32x512x512.Idx) :
    ∃ t : Fin cfg0.N, (cfg0.win 13).flush t = true ∧ i ∈ ((cfg0.win 13).blk t).view.set := by
  have hi0 : (i 0).val < 32 := (i 0).isLt
  have hi1 : (i 1).val < 512 := (i 1).isLt
  have hi2 : (i 2).val < 512 := (i 2).isLt
  obtain ⟨t, ht⟩ := block_onto ⟨(i 0).val / 8, by omega⟩ ⟨(i 2).val / 128, by omega⟩
  obtain ⟨e3, e4, e5, e6, e7, e8, e10, e11, e12, e13, e14, p00, p01, p10, p11, q0, q1, g3, z1, h3⟩ := block_indices t
  have r0 : win0_9.index t (0 : Fin 3) = (i 0).val / 8 := congrFun ht 0
  have r2 : win0_9.index t (2 : Fin 3) = (i 2).val / 128 := congrFun ht 2
  refine ⟨t, flush0_13 t, ?_⟩
  rw [mem_blk13]
  intro a
  match a with
  | ⟨0, _⟩ => show win0_13.index t (0 : Fin 3) * 8 ≤ (i 0).val ∧ (i 0).val < win0_13.index t (0 : Fin 3) * 8 + 8; rw [e13, r0]; omega
  | ⟨1, _⟩ => show win0_13.index t (1 : Fin 3) * 512 ≤ (i 1).val ∧ (i 1).val < win0_13.index t (1 : Fin 3) * 512 + 512; rw [e13, z1]; omega
  | ⟨2, _⟩ => show win0_13.index t (2 : Fin 3) * 128 ≤ (i 2).val ∧ (i 2).val < win0_13.index t (2 : Fin 3) * 128 + 128; rw [e13, r2]; omega

/-- A synapse is in point t's block of output window 14 iff each coordinate is in the block's range on its axis. -/
theorem mem_blk14 (t : Fin cfg0.N) (i : S32x512x512.Idx) :
    i ∈ ((cfg0.win 14).blk t).view.set ↔ ∀ a : Fin 3, win0_14.index t a * S8x512x128.size a ≤ (i a).val ∧ (i a).val < win0_14.index t a * S8x512x128.size a + S8x512x128.size a := by
  show i ∈ ((View.whole main_v26_5).slice (win0_14.rect t)).set ↔ _
  rw [View.set_slice_whole, Rect.mem_set_unit]
  exact Iff.rfl

/-- Every synapse (b, p, q) is in the block that the point (b / 8, q / 128) writes back to output window 14. -/
theorem cover14 (i : S32x512x512.Idx) :
    ∃ t : Fin cfg0.N, (cfg0.win 14).flush t = true ∧ i ∈ ((cfg0.win 14).blk t).view.set := by
  have hi0 : (i 0).val < 32 := (i 0).isLt
  have hi1 : (i 1).val < 512 := (i 1).isLt
  have hi2 : (i 2).val < 512 := (i 2).isLt
  obtain ⟨t, ht⟩ := block_onto ⟨(i 0).val / 8, by omega⟩ ⟨(i 2).val / 128, by omega⟩
  obtain ⟨e3, e4, e5, e6, e7, e8, e10, e11, e12, e13, e14, p00, p01, p10, p11, q0, q1, g3, z1, h3⟩ := block_indices t
  have r0 : win0_9.index t (0 : Fin 3) = (i 0).val / 8 := congrFun ht 0
  have r2 : win0_9.index t (2 : Fin 3) = (i 2).val / 128 := congrFun ht 2
  refine ⟨t, flush0_14 t, ?_⟩
  rw [mem_blk14]
  intro a
  match a with
  | ⟨0, _⟩ => show win0_14.index t (0 : Fin 3) * 8 ≤ (i 0).val ∧ (i 0).val < win0_14.index t (0 : Fin 3) * 8 + 8; rw [e14, r0]; omega
  | ⟨1, _⟩ => show win0_14.index t (1 : Fin 3) * 512 ≤ (i 1).val ∧ (i 1).val < win0_14.index t (1 : Fin 3) * 512 + 512; rw [e14, z1]; omega
  | ⟨2, _⟩ => show win0_14.index t (2 : Fin 3) * 128 ≤ (i 2).val ∧ (i 2).val < win0_14.index t (2 : Fin 3) * 128 + 128; rw [e14, r2]; omega

end Cert.KernelIdeal.Blocks

end
-- ==== Proof.KernelInputSynapses.lean ====
/-
  The input-to-hidden synapses: what the kernel leaves in its first three output arrays.

  At every grid point the kernel's body stores, into each output block, a pointwise expression of the blocks it
  loaded: the presynaptic block [8, 512] re-laid as [8, 512, 1] and stretched along the postsynaptic axis, the
  postsynaptic block [8, 128] re-laid as [8, 1, 128] and stretched along the presynaptic axis, and the synaptic
  blocks as they are. Read at an entry of the block and carried to the arrays' own coordinates, each stored
  block is the corresponding block of the sensor step applied to the whole arrays, with the same grouping of the
  operations; the blocks tile the array, so after the last point the array is that step.
-/
import proofs.«180544_j75737453298145_2_alg».proof.Proof.KernelBlocks

noncomputable section

namespace Cert.KernelIdeal.InputSynapses

open Cert.KernelIdeal Cert.KernelIdeal.Gen Idealize.ShloMosaic Idealize.ShloMosaic.TcCoe Idealize.SL.Sem
open Idealize.ShloMosaic.Pipeline (Dat)
open Cert.Sensor Cert.KernelIdeal.Blocks

variable {F : FTy → Type} [FloatOps F]
variable (m : (ℓ : Loc nD τ sig) → Buf (Elt F) ℓ)

/-- The acausal payload is spelled across two statement groups of the body; put together it is the payload
    of the hidden-to-hidden acausal trace at other operands: decay · trace + (1 · pre) · (1 − flag). -/
theorem acausal_payload (P0 : Vec F S8x512 .f32) (P3 P5 : Vec F S8x512x128 .f32) :
    k0_pay8 P3 (k0_pay6 P5) (k0_pay7 P0) (Scalar.ofBits .f32 0x3F800000#32) = k0_pay11 (k0_pay4 P0) P3 P5 := rfl

/-- What a point writes back to the flag array is its block of the flag step of the arrays. -/
theorem flag_block (c : Dev nD) (t : Fin cfg0.N) :
    (dats m 0 c).flushed 9 t = ((cfg0.win 9).blk t).view.read (Elt F)
      (flagStep (V m c main_arg0) (V m c main_v13) (V m c main_arg4)) := by
  rw [Value.flushed9]
  unfold out0_9
  simp only [View.ld_unit_zero (S := S8x512x128) zero3, View.ld_unit_zero (S := S8x512) zero2, View.ld_unit_zero (S := S8x128) zero2]
  funext y
  rw [View.read_apply]
  obtain ⟨h0, h1, h2⟩ := out9_coords t y
  refine (Value.canon9_eq (iblk m c 0 t) (iblk m c 2 t) (iblk m c 3 t) y).trans ?_
  show _ = flagStep (V m c main_arg0) (V m c main_v13) (V m c main_arg4) (((cfg0.win 9).blk t).view.emb y)
  unfold Value.E9 flagStep
  rw [pre0_apply m c t (Value.ix9_0 y) (preOf (((cfg0.win 9).blk t).view.emb y)) h0 h1,
    post_apply m c t (Value.ix9_2 y) (postOf (((cfg0.win 9).blk t).view.emb y)) h0 h2,
    syn3_apply m c t (Value.ix9_3 y) _ h0 h1 h2]

/-- What a point writes back to the causal-trace array is its block of the causal step of the arrays. -/
theorem causal_block (c : Dev nD) (t : Fin cfg0.N) :
    (dats m 0 c).flushed 10 t = ((cfg0.win 10).blk t).view.read (Elt F)
      (causalStep (V m c main_v13) (V m c main_arg4) (V m c main_arg5)) := by
  rw [Value.flushed10]
  unfold out0_10
  simp only [View.ld_unit_zero (S := S8x512x128) zero3, View.ld_unit_zero (S := S8x512) zero2, View.ld_unit_zero (S := S8x128) zero2]
  funext y
  rw [View.read_apply]
  obtain ⟨h0, h1, h2⟩ := out10_coords t y
  refine (Value.canon10_eq (iblk m c 4 t) (iblk m c 2 t) (iblk m c 3 t) y).trans ?_
  show _ = causalStep (V m c main_v13) (V m c main_arg4) (V m c main_arg5) (((cfg0.win 10).blk t).view.emb y)
  unfold Value.E10 causalStep
  rw [syn4_apply m c t (Value.ix10_0 y) _ h0 h1 h2,
    post_apply m c t (Value.ix10_1 y) (postOf (((cfg0.win 10).blk t).view.emb y)) h0 h2,
    syn3_apply m c t (Value.ix10_2 y) _ h0 h1 h2]

/-- What a point writes back to the acausal-trace array is its block of the acausal step of the arrays. -/
theorem acausal_block (c : Dev nD) (t : Fin cfg0.N) :
    (dats m 0 c).flushed 11 t = ((cfg0.win 11).blk t).view.read (Elt F)
      (acausalStep (V m c main_arg0) (V m c main_arg4) (V m c main_arg6)) := by
  rw [Value.flushed11]
  unfold out0_11
  simp only [View.ld_unit_zero (S := S8x512x128) zero3, View.ld_unit_zero (S := S8x512) zero2, View.ld_unit_zero (S := S8x128) zero2]
  funext y
  rw [View.read_apply]
  obtain ⟨h0, h1, h2⟩ := out11_coords t y
  rw [acausal_payload (iblk m c 0 t) (iblk m c 3 t) (iblk m c 5 t)]
  refine (Value.canon14_eq (iblk m c 5 t) (iblk m c 0 t) (iblk m c 3 t) y).trans ?_
  show _ = acausalStep (V m c main_arg0) (V m c main_arg4) (V m c main_arg6) (((cfg0.win 11).blk t).view.emb y)
  unfold Value.E14 acausalStep
  rw [syn5_apply m c t (Value.ix14_0 y) _ h0 h1 h2,
    pre0_apply m c t (Value.ix14_1 y) (preOf (((cfg0.win 11).blk t).view.emb y)) h0 h1,
    syn3_apply m c t (Value.ix14_2 y) _ h0 h1 h2]

/-- After the last point the flag array is the flag step of the arrays as the kernel found them. -/
theorem flag_array (c : Dev nD) : (dats m 0 c).arrAt 9 cfg0.N = flagStep (V m c main_arg0) (V m c main_v13) (V m c main_arg4) :=
  (dats m 0 c).arrAt_eq_of_cover 9 _ (fun t _ => flag_block m c t) cover9

/-- … the causal-trace array the causal step. -/
theorem causal_array (c : Dev nD) : (dats m 0 c).arrAt 10 cfg0.N = causalStep (V m c main_v13) (V m c main_arg4) (V m c main_arg5) :=
  (dats m 0 c).arrAt_eq_of_cover 10 _ (fun t _ => causal_block m c t) cover10

/-- … and the acausal-trace array the acausal step. -/
theorem acausal_array (c : Dev nD) : (dats m 0 c).arrAt 11 cfg0.N = acausalStep (V m c main_arg0) (V m c main_arg4) (V m c main_arg6) :=
  (dats m 0 c).arrAt_eq_of_cover 11 _ (fun t _ => acausal_block m c t) cover11

end Cert.KernelIdeal.InputSynapses

end
-- ==== Proof.KernelRecurrentSynapses.lean ====
/-
  The hidden-to-hidden synapses: what the kernel leaves in its last three output arrays.

  The same three formulas as for the input-to-hidden synapses, with the second presynaptic spike array (the old
  hidden spikes) in place of the first and the second triple of state arrays in place of the first triple; the
  postsynaptic spikes are shared. Block by block each stored value is the sensor step of the whole arrays, and
  the blocks tile the arrays.
-/
import proofs.«180544_j75737453298145_2_alg».proof.Proof.KernelBlocks

noncomputable section

namespace Cert.KernelIdeal.RecurrentSynapses

open Cert.KernelIdeal Cert.KernelIdeal.Gen Idealize.ShloMosaic Idealize.ShloMosaic.TcCoe Idealize.SL.Sem
open Idealize.ShloMosaic.Pipeline (Dat)
open Cert.Sensor Cert.KernelIdeal.Blocks

variable {F : FTy → Type} [FloatOps F]
variable (m : (ℓ : Loc nD τ sig) → Buf (Elt F) ℓ)

/-- What a point writes back to the flag array is its block of the flag step of the arrays. -/
theorem flag_block (c : Dev nD) (t : Fin cfg0.N) :
    (dats m 0 c).flushed 12 t = ((cfg0.win 12).blk t).view.read (Elt F)
      (flagStep (V m c main_arg1) (V m c main_v13) (V m c main_arg7)) := by
  rw [Value.flushed12]
  unfold out0_12
  simp only [View.ld_unit_zero (S := S8x512x128) zero3, View.ld_unit_zero (S := S8x512) zero2, View.ld_unit_zero (S := S8x128) zero2]
  funext y
  rw [View.read_apply]
  obtain ⟨h0, h1, h2⟩ := out12_coords t y
  refine (Value.canon12_eq (iblk m c 1 t) (iblk m c 2 t) (iblk m c 6 t) y).trans ?_
  show _ = flagStep (V m c main_arg1) (V m c main_v13) (V m c main_arg7) (((cfg0.win 12).blk t).view.emb y)
  unfold Value.E12 flagStep
  rw [show (k0_pay12 (F := F)) (Value.ix12_1 y) = Cert.Sensor.unit from rfl]
  rw [pre1_apply m c t (Value.ix12_0 y) (preOf (((cfg0.win 12).blk t).view.emb y)) h0 h1,
    post_apply m c t (Value.ix12_3 y) (postOf (((cfg0.win 12).blk t).view.emb y)) h0 h2,
    syn6_apply m c t (Value.ix12_4 y) _ h0 h1 h2]

/-- What a point writes back to the causal-trace array is its block of the causal step of the arrays. -/
theorem causal_block (c : Dev nD) (t : Fin cfg0.N) :
    (dats m 0 c).flushed 13 t = ((cfg0.win 13).blk t).view.read (Elt F)
      (causalStep (V m c main_v13) (V m c main_arg7) (V m c main_arg8)) := by
  rw [Value.flushed13]
  unfold out0_13
  simp only [View.ld_unit_zero (S := S8x512x128) zero3, View.ld_unit_zero (S := S8x512) zero2, View.ld_unit_zero (S := S8x128) zero2]
  funext y
  rw [View.read_apply]
  obtain ⟨h0, h1, h2⟩ := out13_coords t y
  refine (Value.canon13_eq (iblk m c 7 t) (iblk m c 2 t) (iblk m c 6 t) y).trans ?_
  show _ = causalStep (V m c main_v13) (V m c main_arg7) (V m c main_arg8) (((cfg0.win 13).blk t).view.emb y)
  unfold Value.E13 causalStep
  rw [syn7_apply m c t (Value.ix13_0 y) _ h0 h1 h2,
    post_apply m c t (Value.ix13_1 y) (postOf (((cfg0.win 13).blk t).view.emb y)) h0 h2,
    syn6_apply m c t (Value.ix13_2 y) _ h0 h1 h2]

/-- What a point writes back to the acausal-trace array is its block of the acausal step of the arrays. -/
theorem acausal_block (c : Dev nD) (t : Fin cfg0.N) :
    (dats m 0 c).flushed 14 t = ((cfg0.win 14).blk t).view.read (Elt F)
      (acausalStep (V m c main_arg1) (V m c main_arg7) (V m c main_arg9)) := by
  rw [Value.flushed14]
  unfold out0_14
  simp only [View.ld_unit_zero (S := S8x512x128) zero3, View.ld_unit_zero (S := S8x512) zero2, View.ld_unit_zero (S := S8x128) zero2]
  funext y
  rw [View.read_apply]
  obtain ⟨h0, h1, h2⟩ := out14_coords t y
  refine (Value.canon14_eq (iblk m c 8 t) (iblk m c 1 t) (iblk m c 6 t) y).trans ?_
  show _ = acausalStep (V m c main_arg1) (V m c main_arg7) (V m c main_arg9) (((cfg0.win 14).blk t).view.emb y)
  unfold Value.E14 acausalStep
  rw [syn8_apply m c t (Value.ix14_0 y) _ h0 h1 h2,
    pre1_apply m c t (Value.ix14_1 y) (preOf (((cfg0.win 14).blk t).view.emb y)) h0 h1,
    syn6_apply m c t (Value.ix14_2 y) _ h0 h1 h2]

/-- After the last point the flag array is the flag step of the arrays as the kernel found them. -/
theorem flag_array (c : Dev nD) : (dats m 0 c).arrAt 12 cfg0.N = flagStep (V m c main_arg1) (V m c main_v13) (V m c main_arg7) :=
  (dats m 0 c).arrAt_eq_of_cover 12 _ (fun t _ => flag_block m c t) cover12

/-- … the causal-trace array the causal step. -/
theorem causal_array (c : Dev nD) : (dats m 0 c).arrAt 13 cfg0.N = causalStep (V m c main_v13) (V m c main_arg7) (V m c main_arg8) :=
  (dats m 0 c).arrAt_eq_of_cover 13 _ (fun t _ => causal_block m c t) cover13

/-- … and the acausal-trace array the acausal step. -/
theorem acausal_array (c : Dev nD) : (dats m 0 c).arrAt 14 cfg0.N = acausalStep (V m c main_arg1) (V m c main_arg7) (V m c main_arg9) :=
  (dats m 0 c).arrAt_eq_of_cover 14 _ (fun t _ => acausal_block m c t) cover14

end Cert.KernelIdeal.RecurrentSynapses

end
-- ==== Proof.KernelRun.lean ====
/-
  The kernel program's run, read: every result as a function of the arguments.

  The three results of the neuron step are the host's (the reference's own terms of the arguments), and each of the
  six synaptic arrays is, after the last grid point, the sensor step of the arrays the kernel was launched on: the
  argument arrays themselves — the host writes none of them, and the kernel writes its results into copies — and,
  for the postsynaptic spikes, the new spikes of the neuron step.
-/
import proofs.«180544_j75737453298145_2_alg».proof.Proof.KernelNeuron
import proofs.«180544_j75737453298145_2_alg».proof.Proof.KernelInputSynapses
import proofs.«180544_j75737453298145_2_alg».proof.Proof.KernelRecurrentSynapses

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.Sensor

variable {F : FTy → Type} [FloatOps F]
variable (m : (ℓ : Loc nD τ sig) → Buf (Elt F) ℓ) (ρ : Dev nD → PrngReg)

set_option maxHeartbeats 4000000 in
/-- Every weakly fair execution of the kernel program ends with the neuron step's three arrays, the six synaptic
    arrays at the sensor step of the arguments, and the arguments unchanged. -/
theorem run : θ_run defs (onTc (τ := τ) (main (F := F))) ⟨m, fun _ => 0, ρ⟩ fun r => ∀ c : Dev nD,
      r.2.mem ((c : Thread nD τ).loc main_v13) = (Cert.ReferenceIdeal.Read.val_main_v13 (F := F) (m ((c : Thread nD τ).loc main_arg2)) (m ((c : Thread nD τ).loc main_arg3)))
      ∧ r.2.mem ((c : Thread nD τ).loc main_v19) = Cert.ReferenceIdeal.Read.val_main_v19 (F := F) (m ((c : Thread nD τ).loc main_arg2)) (m ((c : Thread nD τ).loc main_arg3))
      ∧ r.2.mem ((c : Thread nD τ).loc main_v25) = Cert.ReferenceIdeal.Read.val_main_v25 (F := F) (m ((c : Thread nD τ).loc main_arg0)) (m ((c : Thread nD τ).loc main_arg1)) (m ((c : Thread nD τ).loc main_arg3)) (m ((c : Thread nD τ).loc main_arg10)) (m ((c : Thread nD τ).loc main_arg11))
      ∧ r.2.mem ((c : Thread nD τ).loc main_v26_0) = flagStep (m ((c : Thread nD τ).loc main_arg0)) (Cert.ReferenceIdeal.Read.val_main_v13 (F := F) (m ((c : Thread nD τ).loc main_arg2)) (m ((c : Thread nD τ).loc main_arg3))) (m ((c : Thread nD τ).loc main_arg4))
      ∧ r.2.mem ((c : Thread nD τ).loc main_v26_1) = causalStep (Cert.ReferenceIdeal.Read.val_main_v13 (F := F) (m ((c : Thread nD τ).loc main_arg2)) (m ((c : Thread nD τ).loc main_arg3))) (m ((c : Thread nD τ).loc main_arg4)) (m ((c : Thread nD τ).loc main_arg5))
      ∧ r.2.mem ((c : Thread nD τ).loc main_v26_2) = acausalStep (m ((c : Thread nD τ).loc main_arg0)) (m ((c : Thread nD τ).loc main_arg4)) (m ((c : Thread nD τ).loc main_arg6))
      ∧ r.2.mem ((c : Thread nD τ).loc main_v26_3) = flagStep (m ((c : Thread nD τ).loc main_arg1)) (Cert.ReferenceIdeal.Read.val_main_v13 (F := F) (m ((c : Thread nD τ).loc main_arg2)) (m ((c : Thread nD τ).loc main_arg3))) (m ((c : Thread nD τ).loc main_arg7))
      ∧ r.2.mem ((c : Thread nD τ).loc main_v26_4) = causalStep (Cert.ReferenceIdeal.Read.val_main_v13 (F := F) (m ((c : Thread nD τ).loc main_arg2)) (m ((c : Thread nD τ).loc main_arg3))) (m ((c : Thread nD τ).loc main_arg7)) (m ((c : Thread nD τ).loc main_arg8))
      ∧ r.2.mem ((c : Thread nD τ).loc main_v26_5) = acausalStep (m ((c : Thread nD τ).loc main_arg1)) (m ((c : Thread nD τ).loc main_arg7)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨
      ((h c).1 2).trans (((dats m 0 c).arrAt_in 2 rfl _).trans ((A_eq m c 2).trans (Neuron.spikes m c))),
      ((h c).2 main_v19 (Pipeline.mem_restRefs_of main_v19 (by decide) (by decide))).trans (Neuron.voltage m c),
      ((h c).2 main_v25 (Pipeline.mem_restRefs_of main_v25 (by decide) (by decide))).trans (Neuron.current m c),
      (Value.post9 m r h c).trans ((InputSynapses.flag_array m c).trans (by rw [V_main_arg0 m c, Neuron.spikes m c, V_main_arg4 m c])),
      (Value.post10 m r h c).trans ((InputSynapses.causal_array m c).trans (by rw [Neuron.spikes m c, V_main_arg4 m c, V_main_arg5 m c])),
      (Value.post11 m r h c).trans ((InputSynapses.acausal_array m c).trans (by rw [V_main_arg0 m c, V_main_arg4 m c, V_main_arg6 m c])),
      (Value.post12 m r h c).trans ((RecurrentSynapses.flag_array m c).trans (by rw [V_main_arg1 m c, Neuron.spikes m c, V_main_arg7 m c])),
      (Value.post13 m r h c).trans ((RecurrentSynapses.causal_array m c).trans (by rw [Neuron.spikes m c, V_main_arg7 m c, V_main_arg8 m c])),
      (Value.post14 m r h c).trans ((RecurrentSynapses.acausal_array m c).trans (by rw [V_main_arg1 m c, V_main_arg7 m c, V_main_arg9 m c])),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c,
      Value.kept_main_arg7 m r h c,
      Value.kept_main_arg8 m r h c,
      Value.kept_main_arg9 m r h c,
      Value.kept_main_arg10 m r h c,
      Value.kept_main_arg11 m r h c⟩)
    (run_main m ρ)

end Cert.KernelIdeal.Whole

end
-- ==== Proof.lean ====
/-
  The fused correlation-sensor kernel against its reference, over the extended reals.

  Both programs take one step of a layer of leaky integrate-and-fire neurons and of the two banks of synaptic
  correlation sensors attached to it. The neuron step — the decayed voltage and current, the new spikes, the reset
  voltage, the two matrix products — is computed by the same host operations in both, so its three results are
  literally the same terms of the arguments. The sensor step is where they differ in form: the reference computes it
  with whole-array operations, the kernel block by block over a 4 × 4 grid, every block a pointwise expression of the
  staged blocks. Index by index both are

    causal'  = causal  * d + (1 * post) * flag
    acausal' = acausal * d + (1 * pre)  * (1 - flag)
    flag'    = pre + ((1 - pre) * (1 - post)) * flag

  with the same words d and 1 and the same grouping of the operations, so the two sides are equal as they stand: no
  law of arithmetic is used and the inputs' finiteness is never needed. The kernel's blocks tile the output arrays,
  which therefore end at these formulas of the whole arrays (KernelInputSynapses, KernelRecurrentSynapses over
  KernelBlocks); the reference's terms are read at an index (RefSynapses); both meet at the functions of Spec.

  The three frames are the generated ones (the reference's is its generated run with the results dropped), and the
  idealization rewrote nothing, so there is nothing to preserve.
-/
import proofs.«180544_j75737453298145_2_alg».proof.Defs
import proofs.«180544_j75737453298145_2_alg».proof.Proof.Gen.Kernel
import proofs.«180544_j75737453298145_2_alg».proof.Proof.Gen.Kernel.Skeleton
import proofs.«180544_j75737453298145_2_alg».proof.Proof.Gen.Kernel.Launch
import proofs.«180544_j75737453298145_2_alg».proof.Proof.Gen.Kernel.Points
import proofs.«180544_j75737453298145_2_alg».proof.Proof.Gen.Kernel.Frame
import proofs.«180544_j75737453298145_2_alg».proof.Proof.Gen.KernelIdeal
import proofs.«180544_j75737453298145_2_alg».proof.Proof.Gen.KernelIdeal.Skeleton
import proofs.«180544_j75737453298145_2_alg».proof.Proof.Gen.KernelIdeal.Launch
import proofs.«180544_j75737453298145_2_alg».proof.Proof.Gen.KernelIdeal.Points
import proofs.«180544_j75737453298145_2_alg».proof.Proof.Gen.KernelIdeal.Frame
import proofs.«180544_j75737453298145_2_alg».proof.Proof.Gen.ReferenceIdeal
import proofs.«180544_j75737453298145_2_alg».proof.Proof.Gen.Pre_finite_inputs
import proofs.«180544_j75737453298145_2_alg».proof.Proof.Gen.KernelIdeal.Value
import proofs.«180544_j75737453298145_2_alg».proof.Proof.Gen.ReferenceIdeal.Run
import proofs.«180544_j75737453298145_2_alg».proof.Proof.Gen.ReferenceIdeal.Read
import proofs.«180544_j75737453298145_2_alg».proof.Proof.RefSynapses
import proofs.«180544_j75737453298145_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernel_ideal : Cert.frame_KernelIdeal :=
  fun m ρ _ => Cert.KernelIdeal.Gen.frame m ρ

/-- The reference's generated run with its nine results dropped. -/
theorem frame_reference : Cert.frame_ReferenceIdeal :=
  fun m ρ _ => (θ_run Cert.ReferenceIdeal.defs _ _).mono (fun _ h c => (h c).2.2.2.2.2.2.2.2.2)
    (Cert.ReferenceIdeal.Value.run (F := Ideal) m ρ)

/-- Both programs, from memories agreeing on the arguments, end with the same nine arrays: the neuron step's three
    are the same terms, and the six synaptic ones are the sensor step of the arguments on either side. -/
theorem algebraic : Cert.algebraic_KernelIdeal_ReferenceIdeal := by
  intro m ρ m' ρ' _ hagree
  refine ⟨_, _, _, _, _, _, _, _, _, Cert.KernelIdeal.Whole.run (F := Ideal) m ρ, ?_⟩
  refine (θ_run Cert.ReferenceIdeal.defs _ _).mono (fun r h c => ?_) (Cert.ReferenceIdeal.Value.run (F := Ideal) m' ρ')
  obtain ⟨r13, r19, r25, r53, r34, r43, r81, r62, r71, kept⟩ := h c
  obtain ⟨g0, g1, g2, g3, g4, g5, g6, g7, g8, g9, g10, g11⟩ := hagree c
  refine ⟨r13.trans ?_, r19.trans ?_, r25.trans ?_, r53.trans ?_, r34.trans ?_, r43.trans ?_, r81.trans ?_, r62.trans ?_,
    r71.trans ?_, kept⟩
  · rw [g2, g3]; rfl
  · rw [g2, g3]; rfl
  · rw [g0, g1, g3, g10, g11]; rfl
  · rw [g0, g2, g3, g4]; exact (Cert.ReferenceIdeal.Read.val_main_v53_eq _ _ _ _).trans (Cert.ReferenceIdeal.Synapses.ic_flag _ _ _ _)
  · rw [g2, g3, g4, g5]; exact (Cert.ReferenceIdeal.Read.val_main_v34_eq _ _ _ _).trans (Cert.ReferenceIdeal.Synapses.ic_causal _ _ _ _)
  · rw [g0, g4, g6]; exact (Cert.ReferenceIdeal.Read.val_main_v43_eq _ _ _).trans (Cert.ReferenceIdeal.Synapses.ic_acausal _ _ _)
  · rw [g1, g2, g3, g7]; exact (Cert.ReferenceIdeal.Read.val_main_v81_eq _ _ _ _).trans (Cert.ReferenceIdeal.Synapses.rc_flag _ _ _ _)
  · rw [g2, g3, g7, g8]; exact (Cert.ReferenceIdeal.Read.val_main_v62_eq _ _ _ _).trans (Cert.ReferenceIdeal.Synapses.rc_causal _ _ _ _)
  · rw [g1, g7, g9]; exact (Cert.ReferenceIdeal.Read.val_main_v71_eq _ _ _).trans (Cert.ReferenceIdeal.Synapses.rc_acausal _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
